-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg5 : FVec F S4x64 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S4x64x64 .f32) (main_arg3 : FVec F S4x64x64 .f32) (main_arg4 : FVec F S4x64 .f32) (main_arg5 : FVec F S4x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64x64 .f32 := Host.absf main_arg3
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S4x64 .f32 := Host.absf main_arg4
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩

abbrev nBuf : Space → Nat
  | .hbm => 130
  | .vmem => 40
  | .smem => 0
  | _ => 0

abbrev hbmTy0_0 (i : Nat) : BufTy := match i % 128 with
  | 0 => ⟨S50000x64, .f32⟩
  | 1 => ⟨S2x800000, .i32⟩
  | 2 => ⟨S4x64x64, .f32⟩
  | 3 => ⟨S4x64x64, .f32⟩
  | 4 => ⟨S4x64, .f32⟩
  | 5 => ⟨S4x64, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x1, .f32⟩
  | 36 => ⟨S50000x64, .f32⟩
  | 37 => ⟨S50000x64, .f32⟩
  | 38 => ⟨S1x64x64, .f32⟩
  | 39 => ⟨S64x64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S1x64, .f32⟩
  | 48 => ⟨S50000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000x1, .f32⟩
  | 63 => ⟨S50000x64, .f32⟩
  | 64 => ⟨S50000x64, .f32⟩
  | 65 => ⟨S1x64x64, .f32⟩
  | 66 => ⟨S64x64, .f32⟩
  | 67 => ⟨S1x64x64, .f32⟩
  | 68 => ⟨S64x64, .f32⟩
  | 69 => ⟨S1x64, .f32⟩
  | 70 => ⟨S64, .f32⟩
  | 71 => ⟨S1x64, .f32⟩
  | 72 => ⟨S64, .f32⟩
  | 73 => ⟨S1x64, .f32⟩
  | 74 => ⟨S1x64, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S50000x1, .f32⟩
  | 90 => ⟨S50000x64, .f32⟩
  | 91 => ⟨S50000x64, .f32⟩
  | 92 => ⟨S1x64x64, .f32⟩
  | 93 => ⟨S64x64, .f32⟩
  | 94 => ⟨S1x64x64, .f32⟩
  | 95 => ⟨S64x64, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S1x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S50000x1, .f32⟩
  | 117 => ⟨S50000x64, .f32⟩
  | 118 => ⟨S50000x64, .f32⟩
  | 119 => ⟨S1x64x64, .f32⟩
  | 120 => ⟨S64x64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S50000x64, .f32⟩

abbrev hbmTy0_1 (i : Nat) : BufTy := match i % 128 with
  | 0 => ⟨S1x64, .f32⟩
  | 1 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S64x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_8 : Ref sig .tc := ⟨.hbm, 76, rfl⟩
abbrev main_v60 : Ref sig .tc := ⟨.hbm, 77, rfl⟩
abbrev main_v61 : Ref sig .tc := ⟨.hbm, 78, rfl⟩
abbrev main_c_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_c_11 : Ref sig .tc := ⟨.hbm, 103, rfl⟩
abbrev main_v84 : Ref sig .tc := ⟨.hbm, 104, rfl⟩
abbrev main_v85 : Ref sig .tc := ⟨.hbm, 105, rfl⟩
abbrev main_c_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_13 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v72) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v96) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v105) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v106) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v107) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S4x64x64 : Shape := ⟨3, ![4, 64, 64]⟩
abbrev S4x64 : Shape := ⟨2, ![4, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S800000x64 : Shape := ⟨2, ![800000, 64]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S50000x64, .f32⟩
  | 1 => ⟨S2x800000, .i32⟩
  | 2 => ⟨S4x64x64, .f32⟩
  | 3 => ⟨S4x64x64, .f32⟩
  | 4 => ⟨S4x64, .f32⟩
  | 5 => ⟨S4x64, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S1x64x64, .f32⟩
  | 23 => ⟨S64x64, .f32⟩
  | 24 => ⟨S1x64x64, .f32⟩
  | 25 => ⟨S64x64, .f32⟩
  | 26 => ⟨S1x64, .f32⟩
  | 27 => ⟨S64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S50000x1, .f32⟩
  | 42 => ⟨S50000x64, .f32⟩
  | 43 => ⟨S50000x64, .f32⟩
  | 44 => ⟨S50000x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S1x64, .f32⟩
  | 51 => ⟨S64, .f32⟩
  | 52 => ⟨S_, .f32⟩
  | 53 => ⟨S50000x64, .f32⟩
  | 54 => ⟨S50000x64, .i1⟩
  | 55 => ⟨S1x64, .f32⟩
  | 56 => ⟨S50000x64, .f32⟩
  | 57 => ⟨S50000x64, .f32⟩
  | 58 => ⟨S50000x64, .f32⟩
  | 59 => ⟨S1x64x64, .f32⟩
  | 60 => ⟨S64x64, .f32⟩
  | 61 => ⟨S1x64x64, .f32⟩
  | 62 => ⟨S64x64, .f32⟩
  | 63 => ⟨S1x64, .f32⟩
  | 64 => ⟨S64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S50000x1, .f32⟩
  | 79 => ⟨S50000x64, .f32⟩
  | 80 => ⟨S50000x64, .f32⟩
  | 81 => ⟨S50000x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S1x64, .f32⟩
  | 88 => ⟨S64, .f32⟩
  | 89 => ⟨S_, .f32⟩
  | 90 => ⟨S50000x64, .f32⟩
  | 91 => ⟨S50000x64, .i1⟩
  | 92 => ⟨S1x64, .f32⟩
  | 93 => ⟨S50000x64, .f32⟩
  | 94 => ⟨S50000x64, .f32⟩
  | 95 => ⟨S50000x64, .f32⟩
  | 96 => ⟨S1x64x64, .f32⟩
  | 97 => ⟨S64x64, .f32⟩
  | 98 => ⟨S1x64x64, .f32⟩
  | 99 => ⟨S64x64, .f32⟩
  | 100 => ⟨S1x64, .f32⟩
  | 101 => ⟨S64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S50000x1, .f32⟩
  | 116 => ⟨S50000x64, .f32⟩
  | 117 => ⟨S50000x64, .f32⟩
  | 118 => ⟨S50000x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S1x64, .f32⟩
  | 125 => ⟨S64, .f32⟩
  | 126 => ⟨S_, .f32⟩
  | 127 => ⟨S50000x64, .f32⟩
  | _ => ⟨S50000x64, .f32⟩

abbrev hbmTy0_1 (i : Nat) : BufTy := match i % 128 with
  | 0 => ⟨S50000x64, .i1⟩
  | 1 => ⟨S1x64, .f32⟩
  | 2 => ⟨S50000x64, .f32⟩
  | 3 => ⟨S50000x64, .f32⟩
  | 4 => ⟨S50000x64, .f32⟩
  | 5 => ⟨S1x64x64, .f32⟩
  | 6 => ⟨S64x64, .f32⟩
  | 7 => ⟨S1x64x64, .f32⟩
  | 8 => ⟨S64x64, .f32⟩
  | 9 => ⟨S1x64, .f32⟩
  | 10 => ⟨S64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000x1, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S1x64, .f32⟩
  | 34 => ⟨S64, .f32⟩
  | 35 => ⟨S_, .f32⟩
  | 36 => ⟨S50000x64, .f32⟩
  | 37 => ⟨S50000x64, .i1⟩
  | 38 => ⟨S1x64, .f32⟩
  | 39 => ⟨S50000x64, .f32⟩
  | 40 => ⟨S50000x64, .f32⟩
  | 41 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_c_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_c_10 : Ref sig .tc := ⟨.hbm, 102, rfl⟩
abbrev main_v84 : Ref sig .tc := ⟨.hbm, 103, rfl⟩
abbrev main_v85 : Ref sig .tc := ⟨.hbm, 104, rfl⟩
abbrev main_c_11 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_12 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_13 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_c_14 : Ref sig .tc := ⟨.hbm, 139, rfl⟩
abbrev main_v117 : Ref sig .tc := ⟨.hbm, 140, rfl⟩
abbrev main_v118 : Ref sig .tc := ⟨.hbm, 141, rfl⟩
abbrev main_c_15 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_16 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_17 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KerRun.lean ====
/-
  The idealized kernel's whole run, with its result array named.

  @main is eight segments — a stretch of host operations, then a grid of kernel launches, four times over. The
  buffer contents at each boundary form a chain `W0 … W8`: a host stretch folds its operations over the contents
  it is entered with, a region replaces its windows' arrays by what its write-backs leave and keeps every other
  buffer. Every weakly fair execution terminates with every unscoped buffer at the last link of that chain; here
  that is read at the result buffer as well as at the six arguments.
-/
import proofs.«121877_j6365141532718_1_alg».proof.Proof.Gen.KernelIdeal.Frame

set_option maxRecDepth 16384

noncomputable section

namespace Cert.Sage.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents `W8` and the six argument arrays as launched. -/
theorem run_last : θ_run defs (onTc (τ := τ) (main (F := F))) ⟨m, fun _ => 0, ρ⟩ (fun r => ∀ c : Dev nD,
      r.2.mem ((c.tc : Thread nD τ).loc main_v107) = W8 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v107 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Sage.Ker

end
-- ==== Proof.Layer.lean ====
/-
  The network both programs compute, stated once over the extended reals.

  A node array `x : [50000, 64]`, an edge list `e : [2, 800000]` (row 0 the sources, row 1 the destinations),
  and per layer two `64 × 64` matrices, a bias row and a slope row. One layer is

      agg[n, :]  = (∑ over the edges into n of x[source, :]) · 1 / max(indegree n, 1)
      h          = agg · Wl + x · Wr + b          (two matrix products, the bias added to every row)
      out[n, c]  = h[n, c] if h[n, c] ≥ 0, else slope[c] · h[n, c]

  and the network is four such layers, each with its own slice of the stacked parameters. The gather of the
  source rows, the scatter-add into the destination rows and the degree count are kept as the host operations
  they are: nothing below ever opens them, both programs apply the same ones.
-/
import proofs.«121877_j6365141532718_1_alg».proof.ReferenceIdeal
import Idealize.ShloMosaic.PureOps.Ideal
import Idealize.ShloMosaic.Lib.ValueIdx

noncomputable section

namespace Cert.Sage

open Idealize.ShloMosaic Cert.ReferenceIdeal

variable [Cert.ReferenceIdeal.Facts₀]
open Cert.ReferenceIdeal.Facts₀

/-- The node features, `[50000, 64]` extended reals. -/
abbrev Nodes : Type := FVec Ideal S50000x64 .f32
/-- The edge list, `[2, 800000]` 32-bit integers. -/
abbrev Edges : Type := IVec S2x800000 32
/-- One node index per edge. -/
abbrev EdgeIx : Type := IVec S800000 32
/-- One number per node. -/
abbrev PerNode : Type := FVec Ideal S50000 .f32
/-- The four layers' matrices, stacked. -/
abbrev Mats : Type := FVec Ideal S4x64x64 .f32
/-- The four layers' rows, stacked. -/
abbrev Rows : Type := FVec Ideal S4x64 .f32
/-- One layer's matrix. -/
abbrev Mat : Type := FVec Ideal S64x64 .f32
/-- One layer's row. -/
abbrev Row : Type := FVec Ideal S64 .f32

/-- Where entry `y` of the `T`-th block of 5000 rows sits in the whole array: row `T · 5000 + y₀`, the same column. -/
def blockIdx (T : Nat) (hT : T < 10) (y : (⟨2, ![5000, 64]⟩ : Shape).Idx) : S50000x64.Idx :=
  ValueIdx.ix2 (⟨T * 5000 + (y 0).val, by have := ValueIdx.idx2_lt0 y; omega⟩ : Fin 50000)
    (⟨(y 1).val, ValueIdx.idx2_lt1 y⟩ : Fin 64)

/-- The edges' sources: row 0 of the edge list. -/
def src (e : Edges) : EdgeIx :=
  shapeCast S800000 (extractStridedSlice S1x800000 ![0, 0] e slices_S2x800000_S1x800000_0_0) shapeCasts_S1x800000_S800000

/-- The edges' destinations: row 1 of the edge list. -/
def dst (e : Edges) : EdgeIx :=
  shapeCast S800000 (extractStridedSlice S1x800000 ![1, 0] e slices_S2x800000_S1x800000_1_0) shapeCasts_S1x800000_S800000

/-- `1 / max(indegree, 1)` per node: a one scattered-added per edge at its destination, clamped below at one,
    then the reciprocal. -/
def degInv (e : Edges) : PerNode :=
  Host.divf (F := Ideal) (broadcastInDim S50000 ![] bcast_S_S50000 (constant (F := Ideal) S_ .f32 0x3F800000#32))
    (maximumf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (dst e))
        (broadcastInDim S800000 ![] bcast_S_S800000 (constant (F := Ideal) S_ .f32 0x3F800000#32)))
      (broadcastInDim S50000 ![] bcast_S_S50000 (constant (F := Ideal) S_ .f32 0x3F800000#32)))

/-- The source indices as the gather takes them: a negative index wrapped once by the node count. -/
def srcWrapped (e : Edges) : EdgeIx :=
  select (cmpi .slt (src e) (broadcastInDim S800000 ![] bcast_S_S800000 (constantI S_ 32 0#32)))
    (addi (src e) (broadcastInDim S800000 ![] bcast_S_S800000 (constantI S_ 32 50000#32)))
    (src e)

/-- Mean aggregation: each node's row is the sum of its in-neighbours' rows times `1 / max(indegree, 1)`. -/
def agg (e : Edges) (x : Nodes) : Nodes :=
  mulf
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 (dst e))
      (Host.gather gather_S50000x64_S800000x1_S800000x64_1_0_n_n_0_1_164 x
        (broadcastInDim S800000x1 ![0] bcast_S800000_S800000x1_0 (srcWrapped e))))
    (broadcastInDim S50000x64 ![0, 1] bcast_S50000x1_S50000x64_0_1
      (broadcastInDim S50000x1 ![0] bcast_S50000_S50000x1_0 (degInv e)))

/-- A row repeated down all 50000 rows. -/
def everyRow (r : Row) : Nodes :=
  broadcastInDim S50000x64 ![0, 1] bcast_S1x64_S50000x64_0_1 (broadcastInDim S1x64 ![1] bcast_S64_S1x64_1 r)

/-- The affine part of a layer: `a · Wl + x · Wr + b`. -/
def affine (a x : Nodes) (wl wr : Mat) (b : Row) : Nodes :=
  addf
    (addf (Host.dotGeneral (F := Ideal) dot_S50000x64_S64x64_S50000x64_1_0_0_1_n_n none a wl)
      (Host.dotGeneral (F := Ideal) dot_S50000x64_S64x64_S50000x64_1_0_0_1_n_n none x wr))
    (everyRow b)

/-- The leaky rectifier with a slope per column: `h` where `h ≥ 0`, `slope · h` elsewhere. -/
def prelu (h : Nodes) (slope : Row) : Nodes :=
  select (cmpf .oge h (broadcastInDim S50000x64 ![] bcast_S_S50000x64 (constant (F := Ideal) S_ .f32 0x00000000#32)))
    h (mulf (everyRow slope) h)

/-- The dense half of a layer, from the aggregated neighbours `a` and the nodes' own rows `x`. -/
def dense (a x : Nodes) (wl wr : Mat) (b slope : Row) : Nodes :=
  prelu (affine a x wl wr b) slope

/-- Layer `k`'s matrix out of the stack. -/
def mat0 (W : Mats) : Mat := shapeCast S64x64 (extractStridedSlice S1x64x64 ![0, 0, 0] W slices_S4x64x64_S1x64x64_0_0_0) shapeCasts_S1x64x64_S64x64
def mat1 (W : Mats) : Mat := shapeCast S64x64 (extractStridedSlice S1x64x64 ![1, 0, 0] W slices_S4x64x64_S1x64x64_1_0_0) shapeCasts_S1x64x64_S64x64
def mat2 (W : Mats) : Mat := shapeCast S64x64 (extractStridedSlice S1x64x64 ![2, 0, 0] W slices_S4x64x64_S1x64x64_2_0_0) shapeCasts_S1x64x64_S64x64
def mat3 (W : Mats) : Mat := shapeCast S64x64 (extractStridedSlice S1x64x64 ![3, 0, 0] W slices_S4x64x64_S1x64x64_3_0_0) shapeCasts_S1x64x64_S64x64

/-- Layer `k`'s row out of the stack. -/
def row0 (B : Rows) : Row := shapeCast S64 (extractStridedSlice S1x64 ![0, 0] B slices_S4x64_S1x64_0_0) shapeCasts_S1x64_S64
def row1 (B : Rows) : Row := shapeCast S64 (extractStridedSlice S1x64 ![1, 0] B slices_S4x64_S1x64_1_0) shapeCasts_S1x64_S64
def row2 (B : Rows) : Row := shapeCast S64 (extractStridedSlice S1x64 ![2, 0] B slices_S4x64_S1x64_2_0) shapeCasts_S1x64_S64
def row3 (B : Rows) : Row := shapeCast S64 (extractStridedSlice S1x64 ![3, 0] B slices_S4x64_S1x64_3_0) shapeCasts_S1x64_S64

/-- One layer from the previous layer's nodes. -/
def layer (e : Edges) (wl wr : Mat) (b slope : Row) (x : Nodes) : Nodes :=
  dense (agg e x) x wl wr b slope

/-- The four layers. -/
def net (x : Nodes) (e : Edges) (Wl Wr : Mats) (B A : Rows) : Nodes :=
  layer e (mat3 Wl) (mat3 Wr) (row3 B) (row3 A)
    (layer e (mat2 Wl) (mat2 Wr) (row2 B) (row2 A)
      (layer e (mat1 Wl) (mat1 Wr) (row1 B) (row1 A)
        (layer e (mat0 Wl) (mat0 Wr) (row0 B) (row0 A) x)))

end Cert.Sage

end
-- ==== Proof.KerRegion0.lean ====
/-
  Launch 0: from the blocks to the array.

  The grid has ten points; point `t` reads rows `5000·t … 5000·t + 4999` of the aggregated array and of the node
  array, the whole of both matrices and of the bias and slope rows, and writes back rows `5000·t …` of the result.
  So if what the body leaves at a point is, entry by entry, one function `G` of the whole array read at
  `(5000·t + p, q)`, then — the ten row blocks covering the array — the array ends holding `G`.
-/
import proofs.«121877_j6365141532718_1_alg».proof.Proof.Gen.KernelIdeal.Frame
import proofs.«121877_j6365141532718_1_alg».proof.Proof.Layer
import Idealize.ShloMosaic.Lib.Pipeline.Value
import Idealize.ShloMosaic.Lib.ValueIdx

set_option maxRecDepth 16384

noncomputable section

namespace Cert.Sage.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable [Cert.ReferenceIdeal.Facts₀]

theorem hz0 : (![0, 0] : Fin 2 → Nat) = fun _ => 0 := funext fun a => by fin_cases a <;> rfl

/-- The printed index maps, decided once over the ten points: the two row-blocked inputs and the output move with
    the point along the rows, the four small operands stay at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- An index of the result array is in point `t`'s block iff each coordinate is in the block's range. -/
theorem mem_blk0 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v35).slice (win0_6.rect t)).set ↔ _
  rw [View.set_slice_whole, Rect.mem_set_unit]
  exact Iff.rfl

/-- THE ARRAY after launch 0, from any contents `V` at its entry: whatever one function `G` the body's result is,
    block by block, of the entry contents. -/
theorem region0_cover
    (V : (c : Dev nD) → (b : Ref sig .tc) → Buf (Elt Ideal) ((c : Thread nD τ).loc b)) (c : Dev nD)
    (G : Cert.Sage.Nodes)
    (hpay : ∀ (T : Nat) (hT : T < 10) (x0 x1 : Vec Ideal S5000x64 .f32) (x2 x3 : Vec Ideal S64x64 .f32) (x4 x5 : Vec Ideal S1x64 .f32),
      (∀ y, x0 y = V c main_v24 (Cert.Sage.blockIdx T hT y)) → (∀ y, x1 y = V c main_arg0 (Cert.Sage.blockIdx T hT y)) →
      (∀ y, x2 y = V c main_v26 y) → (∀ y, x3 y = V c main_v28 y) → (∀ y, x4 y = V c main_v33 y) → (∀ y, x5 y = V c main_v34 y) →
      ∀ j, k0_pay1 (F := Ideal) x0 x1 x2 x3 x4 x5 j = G (Cert.Sage.blockIdx T hT j)) :
    (dat0 V c).arrAt 6 cfg0.N = G := by
  refine (dat0 V c).arrAt_eq_of_cover 6 G (fun t _ => ?_) (fun i => ?_)
  · -- what point t writes back is block t of G
    obtain ⟨e00, e01, e10, e11, e20, e21, e30, e31, e40, e41, e50, e51, e60, e61, ht⟩ := idx0 t
    show (cfg0.win 6).cut (grid0.coords t) ((dat0 V c).after 6 t) = _
    rw [after0_6]
    unfold out0_6
    rw [View.canon_unit_zero hz0]
    simp only [View.ld_unit_zero (S := S5000x64) hz0, View.ld_unit_zero (S := S64x64) hz0, View.ld_unit_zero (S := S1x64) hz0]
    funext j
    have hout : ((cfg0.win 6).blk t).view.emb j = Cert.Sage.blockIdx t.val ht j := by
      funext a; apply Fin.ext
      match a with
      | ⟨0, _⟩ => show win0_6.index t (0 : Fin 2) * 5000 + 1 * (j 0).val = t.val * 5000 + (j 0).val; omega
      | ⟨1, _⟩ => show win0_6.index t (1 : Fin 2) * 64 + 1 * (j 1).val = (j 1).val; omega
    show k0_pay1 (F := Ideal) (iblk0 V c 0 t) (iblk0 V c 1 t) (iblk0 V c 2 t) (iblk0 V c 3 t) (iblk0 V c 4 t) (iblk0 V c 5 t) j
        = G (((cfg0.win 6).blk t).view.emb j)
    rw [hout]
    refine hpay t.val ht (iblk0 V c 0 t) (iblk0 V c 1 t) (iblk0 V c 2 t) (iblk0 V c 3 t) (iblk0 V c 4 t) (iblk0 V c 5 t) ?_ ?_ ?_ ?_ ?_ ?_ j
    · intro y
      show V c main_v24 (((cfg0.win 0).blk t).view.emb y) = V c main_v24 (Cert.Sage.blockIdx t.val ht y)
      refine congrArg _ (funext fun a => Fin.ext ?_)
      match a with
      | ⟨0, _⟩ => show win0_0.index t (0 : Fin 2) * 5000 + 1 * (y 0).val = t.val * 5000 + (y 0).val; omega
      | ⟨1, _⟩ => show win0_0.index t (1 : Fin 2) * 64 + 1 * (y 1).val = (y 1).val; omega
    · intro y
      show V c main_arg0 (((cfg0.win 1).blk t).view.emb y) = V c main_arg0 (Cert.Sage.blockIdx t.val ht y)
      refine congrArg _ (funext fun a => Fin.ext ?_)
      match a with
      | ⟨0, _⟩ => show win0_1.index t (0 : Fin 2) * 5000 + 1 * (y 0).val = t.val * 5000 + (y 0).val; omega
      | ⟨1, _⟩ => show win0_1.index t (1 : Fin 2) * 64 + 1 * (y 1).val = (y 1).val; omega
    · intro y
      show V c main_v26 (((cfg0.win 2).blk t).view.emb y) = V c main_v26 y
      refine congrArg _ (funext fun a => Fin.ext ?_)
      match a with
      | ⟨0, _⟩ => show win0_2.index t (0 : Fin 2) * 64 + 1 * (y 0).val = (y 0).val; omega
      | ⟨1, _⟩ => show win0_2.index t (1 : Fin 2) * 64 + 1 * (y 1).val = (y 1).val; omega
    · intro y
      show V c main_v28 (((cfg0.win 3).blk t).view.emb y) = V c main_v28 y
      refine congrArg _ (funext fun a => Fin.ext ?_)
      match a with
      | ⟨0, _⟩ => show win0_3.index t (0 : Fin 2) * 64 + 1 * (y 0).val = (y 0).val; omega
      | ⟨1, _⟩ => show win0_3.index t (1 : Fin 2) * 64 + 1 * (y 1).val = (y 1).val; omega
    · intro y
      show V c main_v33 (((cfg0.win 4).blk t).view.emb y) = V c main_v33 y
      refine congrArg _ (funext fun a => Fin.ext ?_)
      match a with
      | ⟨0, _⟩ => show win0_4.index t (0 : Fin 2) * 1 + 1 * (y 0).val = (y 0).val; omega
      | ⟨1, _⟩ => show win0_4.index t (1 : Fin 2) * 64 + 1 * (y 1).val = (y 1).val; omega
    · intro y
      show V c main_v34 (((cfg0.win 5).blk t).view.emb y) = V c main_v34 y
      refine congrArg _ (funext fun a => Fin.ext ?_)
      match a with
      | ⟨0, _⟩ => show win0_5.index t (0 : Fin 2) * 1 + 1 * (y 0).val = (y 0).val; omega
      | ⟨1, _⟩ => show win0_5.index t (1 : Fin 2) * 64 + 1 * (y 1).val = (y 1).val; omega
  · -- every row lies in the block of the point that is its quotient by 5000
    have hi0 : (i 0).val < 50000 := (i 0).isLt
    have hi1 : (i 1).val < 64 := (i 1).isLt
    have hN : cfg0.N = 10 := N_0
    let t : Fin cfg0.N := ⟨(i 0).val / 5000, by rw [hN]; omega⟩
    obtain ⟨e00, e01, e10, e11, e20, e21, e30, e31, e40, e41, e50, e51, e60, e61, ht⟩ := idx0 t
    have htv : t.val = (i 0).val / 5000 := rfl
    refine ⟨t, flush0_6 t, ?_⟩
    rw [mem_blk0]
    intro a
    match a with
    | ⟨0, _⟩ => show win0_6.index t (0 : Fin 2) * 5000 ≤ (i 0).val ∧ (i 0).val < win0_6.index t (0 : Fin 2) * 5000 + 5000; omega
    | ⟨1, _⟩ => show win0_6.index t (1 : Fin 2) * 64 ≤ (i 1).val ∧ (i 1).val < win0_6.index t (1 : Fin 2) * 64 + 64; omega

end Cert.Sage.Ker

end
-- ==== Proof.KerRegion1.lean ====
/-
  Launch 1: from the blocks to the array.

  The grid has ten points; point `t` reads rows `5000·t … 5000·t + 4999` of the aggregated array and of the node
  array, the whole of both matrices and of the bias and slope rows, and writes back rows `5000·t …` of the result.
  So if what the body leaves at a point is, entry by entry, one function `G` of the whole array read at
  `(5000·t + p, q)`, then — the ten row blocks covering the array — the array ends holding `G`.
-/
import proofs.«121877_j6365141532718_1_alg».proof.Proof.Gen.KernelIdeal.Frame
import proofs.«121877_j6365141532718_1_alg».proof.Proof.Layer
import Idealize.ShloMosaic.Lib.Pipeline.Value
import Idealize.ShloMosaic.Lib.ValueIdx

set_option maxRecDepth 16384

noncomputable section

namespace Cert.Sage.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable [Cert.ReferenceIdeal.Facts₀]

theorem hz1 : (![0, 0] : Fin 2 → Nat) = fun _ => 0 := funext fun a => by fin_cases a <;> rfl

/-- The printed index maps, decided once over the ten points: the two row-blocked inputs and the output move with
    the point along the rows, the four small operands stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- An index of the result array is in point `t`'s block iff each coordinate is in the block's range. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v59).slice (win1_6.rect t)).set ↔ _
  rw [View.set_slice_whole, Rect.mem_set_unit]
  exact Iff.rfl

/-- THE ARRAY after launch 1, from any contents `V` at its entry: whatever one function `G` the body's result is,
    block by block, of the entry contents. -/
theorem region1_cover
    (V : (c : Dev nD) → (b : Ref sig .tc) → Buf (Elt Ideal) ((c : Thread nD τ).loc b)) (c : Dev nD)
    (G : Cert.Sage.Nodes)
    (hpay : ∀ (T : Nat) (hT : T < 10) (x0 x1 : Vec Ideal S5000x64 .f32) (x2 x3 : Vec Ideal S64x64 .f32) (x4 x5 : Vec Ideal S1x64 .f32),
      (∀ y, x0 y = V c main_v48 (Cert.Sage.blockIdx T hT y)) → (∀ y, x1 y = V c main_v35 (Cert.Sage.blockIdx T hT y)) →
      (∀ y, x2 y = V c main_v50 y) → (∀ y, x3 y = V c main_v52 y) → (∀ y, x4 y = V c main_v57 y) → (∀ y, x5 y = V c main_v58 y) →
      ∀ j, k1_pay1 (F := Ideal) x0 x1 x2 x3 x4 x5 j = G (Cert.Sage.blockIdx T hT j)) :
    (dat1 V c).arrAt 6 cfg1.N = G := by
  refine (dat1 V c).arrAt_eq_of_cover 6 G (fun t _ => ?_) (fun i => ?_)
  · -- what point t writes back is block t of G
    obtain ⟨e00, e01, e10, e11, e20, e21, e30, e31, e40, e41, e50, e51, e60, e61, ht⟩ := idx1 t
    show (cfg1.win 6).cut (grid1.coords t) ((dat1 V c).after 6 t) = _
    rw [after1_6]
    unfold out1_6
    rw [View.canon_unit_zero hz1]
    simp only [View.ld_unit_zero (S := S5000x64) hz1, View.ld_unit_zero (S := S64x64) hz1, View.ld_unit_zero (S := S1x64) hz1]
    funext j
    have hout : ((cfg1.win 6).blk t).view.emb j = Cert.Sage.blockIdx t.val ht j := by
      funext a; apply Fin.ext
      match a with
      | ⟨0, _⟩ => show win1_6.index t (0 : Fin 2) * 5000 + 1 * (j 0).val = t.val * 5000 + (j 0).val; omega
      | ⟨1, _⟩ => show win1_6.index t (1 : Fin 2) * 64 + 1 * (j 1).val = (j 1).val; omega
    show k1_pay1 (F := Ideal) (iblk1 V c 0 t) (iblk1 V c 1 t) (iblk1 V c 2 t) (iblk1 V c 3 t) (iblk1 V c 4 t) (iblk1 V c 5 t) j
        = G (((cfg1.win 6).blk t).view.emb j)
    rw [hout]
    refine hpay t.val ht (iblk1 V c 0 t) (iblk1 V c 1 t) (iblk1 V c 2 t) (iblk1 V c 3 t) (iblk1 V c 4 t) (iblk1 V c 5 t) ?_ ?_ ?_ ?_ ?_ ?_ j
    · intro y
      show V c main_v48 (((cfg1.win 0).blk t).view.emb y) = V c main_v48 (Cert.Sage.blockIdx t.val ht y)
      refine congrArg _ (funext fun a => Fin.ext ?_)
      match a with
      | ⟨0, _⟩ => show win1_0.index t (0 : Fin 2) * 5000 + 1 * (y 0).val = t.val * 5000 + (y 0).val; omega
      | ⟨1, _⟩ => show win1_0.index t (1 : Fin 2) * 64 + 1 * (y 1).val = (y 1).val; omega
    · intro y
      show V c main_v35 (((cfg1.win 1).blk t).view.emb y) = V c main_v35 (Cert.Sage.blockIdx t.val ht y)
      refine congrArg _ (funext fun a => Fin.ext ?_)
      match a with
      | ⟨0, _⟩ => show win1_1.index t (0 : Fin 2) * 5000 + 1 * (y 0).val = t.val * 5000 + (y 0).val; omega
      | ⟨1, _⟩ => show win1_1.index t (1 : Fin 2) * 64 + 1 * (y 1).val = (y 1).val; omega
    · intro y
      show V c main_v50 (((cfg1.win 2).blk t).view.emb y) = V c main_v50 y
      refine congrArg _ (funext fun a => Fin.ext ?_)
      match a with
      | ⟨0, _⟩ => show win1_2.index t (0 : Fin 2) * 64 + 1 * (y 0).val = (y 0).val; omega
      | ⟨1, _⟩ => show win1_2.index t (1 : Fin 2) * 64 + 1 * (y 1).val = (y 1).val; omega
    · intro y
      show V c main_v52 (((cfg1.win 3).blk t).view.emb y) = V c main_v52 y
      refine congrArg _ (funext fun a => Fin.ext ?_)
      match a with
      | ⟨0, _⟩ => show win1_3.index t (0 : Fin 2) * 64 + 1 * (y 0).val = (y 0).val; omega
      | ⟨1, _⟩ => show win1_3.index t (1 : Fin 2) * 64 + 1 * (y 1).val = (y 1).val; omega
    · intro y
      show V c main_v57 (((cfg1.win 4).blk t).view.emb y) = V c main_v57 y
      refine congrArg _ (funext fun a => Fin.ext ?_)
      match a with
      | ⟨0, _⟩ => show win1_4.index t (0 : Fin 2) * 1 + 1 * (y 0).val = (y 0).val; omega
      | ⟨1, _⟩ => show win1_4.index t (1 : Fin 2) * 64 + 1 * (y 1).val = (y 1).val; omega
    · intro y
      show V c main_v58 (((cfg1.win 5).blk t).view.emb y) = V c main_v58 y
      refine congrArg _ (funext fun a => Fin.ext ?_)
      match a with
      | ⟨0, _⟩ => show win1_5.index t (0 : Fin 2) * 1 + 1 * (y 0).val = (y 0).val; omega
      | ⟨1, _⟩ => show win1_5.index t (1 : Fin 2) * 64 + 1 * (y 1).val = (y 1).val; omega
  · -- every row lies in the block of the point that is its quotient by 5000
    have hi0 : (i 0).val < 50000 := (i 0).isLt
    have hi1 : (i 1).val < 64 := (i 1).isLt
    have hN : cfg1.N = 10 := N_1
    let t : Fin cfg1.N := ⟨(i 0).val / 5000, by rw [hN]; omega⟩
    obtain ⟨e00, e01, e10, e11, e20, e21, e30, e31, e40, e41, e50, e51, e60, e61, ht⟩ := idx1 t
    have htv : t.val = (i 0).val / 5000 := rfl
    refine ⟨t, flush1_6 t, ?_⟩
    rw [mem_blk1]
    intro a
    match a with
    | ⟨0, _⟩ => show win1_6.index t (0 : Fin 2) * 5000 ≤ (i 0).val ∧ (i 0).val < win1_6.index t (0 : Fin 2) * 5000 + 5000; omega
    | ⟨1, _⟩ => show win1_6.index t (1 : Fin 2) * 64 ≤ (i 1).val ∧ (i 1).val < win1_6.index t (1 : Fin 2) * 64 + 64; omega

end Cert.Sage.Ker

end
-- ==== Proof.KerRegion2.lean ====
/-
  Launch 2: from the blocks to the array.

  The grid has ten points; point `t` reads rows `5000·t … 5000·t + 4999` of the aggregated array and of the node
  array, the whole of both matrices and of the bias and slope rows, and writes back rows `5000·t …` of the result.
  So if what the body leaves at a point is, entry by entry, one function `G` of the whole array read at
  `(5000·t + p, q)`, then — the ten row blocks covering the array — the array ends holding `G`.
-/
import proofs.«121877_j6365141532718_1_alg».proof.Proof.Gen.KernelIdeal.Frame
import proofs.«121877_j6365141532718_1_alg».proof.Proof.Layer
import Idealize.ShloMosaic.Lib.Pipeline.Value
import Idealize.ShloMosaic.Lib.ValueIdx

set_option maxRecDepth 16384

noncomputable section

namespace Cert.Sage.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable [Cert.ReferenceIdeal.Facts₀]

theorem hz2 : (![0, 0] : Fin 2 → Nat) = fun _ => 0 := funext fun a => by fin_cases a <;> rfl

/-- The printed index maps, decided once over the ten points: the two row-blocked inputs and the output move with
    the point along the rows, the four small operands stay at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 10 :=
  (by decide +kernel : ∀ t : Fin grid2.N, _)

/-- An index of the result array is in point `t`'s block iff each coordinate is in the block's range. -/
theorem mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v83).slice (win2_6.rect t)).set ↔ _
  rw [View.set_slice_whole, Rect.mem_set_unit]
  exact Iff.rfl

/-- THE ARRAY after launch 2, from any contents `V` at its entry: whatever one function `G` the body's result is,
    block by block, of the entry contents. -/
theorem region2_cover
    (V : (c : Dev nD) → (b : Ref sig .tc) → Buf (Elt Ideal) ((c : Thread nD τ).loc b)) (c : Dev nD)
    (G : Cert.Sage.Nodes)
    (hpay : ∀ (T : Nat) (hT : T < 10) (x0 x1 : Vec Ideal S5000x64 .f32) (x2 x3 : Vec Ideal S64x64 .f32) (x4 x5 : Vec Ideal S1x64 .f32),
      (∀ y, x0 y = V c main_v72 (Cert.Sage.blockIdx T hT y)) → (∀ y, x1 y = V c main_v59 (Cert.Sage.blockIdx T hT y)) →
      (∀ y, x2 y = V c main_v74 y) → (∀ y, x3 y = V c main_v76 y) → (∀ y, x4 y = V c main_v81 y) → (∀ y, x5 y = V c main_v82 y) →
      ∀ j, k2_pay1 (F := Ideal) x0 x1 x2 x3 x4 x5 j = G (Cert.Sage.blockIdx T hT j)) :
    (dat2 V c).arrAt 6 cfg2.N = G := by
  refine (dat2 V c).arrAt_eq_of_cover 6 G (fun t _ => ?_) (fun i => ?_)
  · -- what point t writes back is block t of G
    obtain ⟨e00, e01, e10, e11, e20, e21, e30, e31, e40, e41, e50, e51, e60, e61, ht⟩ := idx2 t
    show (cfg2.win 6).cut (grid2.coords t) ((dat2 V c).after 6 t) = _
    rw [after2_6]
    unfold out2_6
    rw [View.canon_unit_zero hz2]
    simp only [View.ld_unit_zero (S := S5000x64) hz2, View.ld_unit_zero (S := S64x64) hz2, View.ld_unit_zero (S := S1x64) hz2]
    funext j
    have hout : ((cfg2.win 6).blk t).view.emb j = Cert.Sage.blockIdx t.val ht j := by
      funext a; apply Fin.ext
      match a with
      | ⟨0, _⟩ => show win2_6.index t (0 : Fin 2) * 5000 + 1 * (j 0).val = t.val * 5000 + (j 0).val; omega
      | ⟨1, _⟩ => show win2_6.index t (1 : Fin 2) * 64 + 1 * (j 1).val = (j 1).val; omega
    show k2_pay1 (F := Ideal) (iblk2 V c 0 t) (iblk2 V c 1 t) (iblk2 V c 2 t) (iblk2 V c 3 t) (iblk2 V c 4 t) (iblk2 V c 5 t) j
        = G (((cfg2.win 6).blk t).view.emb j)
    rw [hout]
    refine hpay t.val ht (iblk2 V c 0 t) (iblk2 V c 1 t) (iblk2 V c 2 t) (iblk2 V c 3 t) (iblk2 V c 4 t) (iblk2 V c 5 t) ?_ ?_ ?_ ?_ ?_ ?_ j
    · intro y
      show V c main_v72 (((cfg2.win 0).blk t).view.emb y) = V c main_v72 (Cert.Sage.blockIdx t.val ht y)
      refine congrArg _ (funext fun a => Fin.ext ?_)
      match a with
      | ⟨0, _⟩ => show win2_0.index t (0 : Fin 2) * 5000 + 1 * (y 0).val = t.val * 5000 + (y 0).val; omega
      | ⟨1, _⟩ => show win2_0.index t (1 : Fin 2) * 64 + 1 * (y 1).val = (y 1).val; omega
    · intro y
      show V c main_v59 (((cfg2.win 1).blk t).view.emb y) = V c main_v59 (Cert.Sage.blockIdx t.val ht y)
      refine congrArg _ (funext fun a => Fin.ext ?_)
      match a with
      | ⟨0, _⟩ => show win2_1.index t (0 : Fin 2) * 5000 + 1 * (y 0).val = t.val * 5000 + (y 0).val; omega
      | ⟨1, _⟩ => show win2_1.index t (1 : Fin 2) * 64 + 1 * (y 1).val = (y 1).val; omega
    · intro y
      show V c main_v74 (((cfg2.win 2).blk t).view.emb y) = V c main_v74 y
      refine congrArg _ (funext fun a => Fin.ext ?_)
      match a with
      | ⟨0, _⟩ => show win2_2.index t (0 : Fin 2) * 64 + 1 * (y 0).val = (y 0).val; omega
      | ⟨1, _⟩ => show win2_2.index t (1 : Fin 2) * 64 + 1 * (y 1).val = (y 1).val; omega
    · intro y
      show V c main_v76 (((cfg2.win 3).blk t).view.emb y) = V c main_v76 y
      refine congrArg _ (funext fun a => Fin.ext ?_)
      match a with
      | ⟨0, _⟩ => show win2_3.index t (0 : Fin 2) * 64 + 1 * (y 0).val = (y 0).val; omega
      | ⟨1, _⟩ => show win2_3.index t (1 : Fin 2) * 64 + 1 * (y 1).val = (y 1).val; omega
    · intro y
      show V c main_v81 (((cfg2.win 4).blk t).view.emb y) = V c main_v81 y
      refine congrArg _ (funext fun a => Fin.ext ?_)
      match a with
      | ⟨0, _⟩ => show win2_4.index t (0 : Fin 2) * 1 + 1 * (y 0).val = (y 0).val; omega
      | ⟨1, _⟩ => show win2_4.index t (1 : Fin 2) * 64 + 1 * (y 1).val = (y 1).val; omega
    · intro y
      show V c main_v82 (((cfg2.win 5).blk t).view.emb y) = V c main_v82 y
      refine congrArg _ (funext fun a => Fin.ext ?_)
      match a with
      | ⟨0, _⟩ => show win2_5.index t (0 : Fin 2) * 1 + 1 * (y 0).val = (y 0).val; omega
      | ⟨1, _⟩ => show win2_5.index t (1 : Fin 2) * 64 + 1 * (y 1).val = (y 1).val; omega
  · -- every row lies in the block of the point that is its quotient by 5000
    have hi0 : (i 0).val < 50000 := (i 0).isLt
    have hi1 : (i 1).val < 64 := (i 1).isLt
    have hN : cfg2.N = 10 := N_2
    let t : Fin cfg2.N := ⟨(i 0).val / 5000, by rw [hN]; omega⟩
    obtain ⟨e00, e01, e10, e11, e20, e21, e30, e31, e40, e41, e50, e51, e60, e61, ht⟩ := idx2 t
    have htv : t.val = (i 0).val / 5000 := rfl
    refine ⟨t, flush2_6 t, ?_⟩
    rw [mem_blk2]
    intro a
    match a with
    | ⟨0, _⟩ => show win2_6.index t (0 : Fin 2) * 5000 ≤ (i 0).val ∧ (i 0).val < win2_6.index t (0 : Fin 2) * 5000 + 5000; omega
    | ⟨1, _⟩ => show win2_6.index t (1 : Fin 2) * 64 ≤ (i 1).val ∧ (i 1).val < win2_6.index t (1 : Fin 2) * 64 + 64; omega

end Cert.Sage.Ker

end
-- ==== Proof.KerRegion3.lean ====
/-
  Launch 3: from the blocks to the array.

  The grid has ten points; point `t` reads rows `5000·t … 5000·t + 4999` of the aggregated array and of the node
  array, the whole of both matrices and of the bias and slope rows, and writes back rows `5000·t …` of the result.
  So if what the body leaves at a point is, entry by entry, one function `G` of the whole array read at
  `(5000·t + p, q)`, then — the ten row blocks covering the array — the array ends holding `G`.
-/
import proofs.«121877_j6365141532718_1_alg».proof.Proof.Gen.KernelIdeal.Frame
import proofs.«121877_j6365141532718_1_alg».proof.Proof.Layer
import Idealize.ShloMosaic.Lib.Pipeline.Value
import Idealize.ShloMosaic.Lib.ValueIdx

set_option maxRecDepth 16384

noncomputable section

namespace Cert.Sage.Ker

open Cert.KernelIdeal Cert.KernelIdeal.Gen
open Idealize.ShloMosaic Idealize.ShloMosaic.TcCoe Idealize.SL.Sem Idealize.ShloMosaic.ValueIdx
open Idealize.ShloMosaic.Pipeline (Dat Cfg Window)

variable [Cert.ReferenceIdeal.Facts₀]

theorem hz3 : (![0, 0] : Fin 2 → Nat) = fun _ => 0 := funext fun a => by fin_cases a <;> rfl

/-- The printed index maps, decided once over the ten points: the two row-blocked inputs and the output move with
    the point along the rows, the four small operands stay at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 10 :=
  (by decide +kernel : ∀ t : Fin grid3.N, _)

/-- An index of the result array is in point `t`'s block iff each coordinate is in the block's range. -/
theorem mem_blk3 (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v107).slice (win3_6.rect t)).set ↔ _
  rw [View.set_slice_whole, Rect.mem_set_unit]
  exact Iff.rfl

/-- THE ARRAY after launch 3, from any contents `V` at its entry: whatever one function `G` the body's result is,
    block by block, of the entry contents. -/
theorem region3_cover
    (V : (c : Dev nD) → (b : Ref sig .tc) → Buf (Elt Ideal) ((c : Thread nD τ).loc b)) (c : Dev nD)
    (G : Cert.Sage.Nodes)
    (hpay : ∀ (T : Nat) (hT : T < 10) (x0 x1 : Vec Ideal S5000x64 .f32) (x2 x3 : Vec Ideal S64x64 .f32) (x4 x5 : Vec Ideal S1x64 .f32),
      (∀ y, x0 y = V c main_v96 (Cert.Sage.blockIdx T hT y)) → (∀ y, x1 y = V c main_v83 (Cert.Sage.blockIdx T hT y)) →
      (∀ y, x2 y = V c main_v98 y) → (∀ y, x3 y = V c main_v100 y) → (∀ y, x4 y = V c main_v105 y) → (∀ y, x5 y = V c main_v106 y) →
      ∀ j, k3_pay1 (F := Ideal) x0 x1 x2 x3 x4 x5 j = G (Cert.Sage.blockIdx T hT j)) :
    (dat3 V c).arrAt 6 cfg3.N = G := by
  refine (dat3 V c).arrAt_eq_of_cover 6 G (fun t _ => ?_) (fun i => ?_)
  · -- what point t writes back is block t of G
    obtain ⟨e00, e01, e10, e11, e20, e21, e30, e31, e40, e41, e50, e51, e60, e61, ht⟩ := idx3 t
    show (cfg3.win 6).cut (grid3.coords t) ((dat3 V c).after 6 t) = _
    rw [after3_6]
    unfold out3_6
    rw [View.canon_unit_zero hz3]
    simp only [View.ld_unit_zero (S := S5000x64) hz3, View.ld_unit_zero (S := S64x64) hz3, View.ld_unit_zero (S := S1x64) hz3]
    funext j
    have hout : ((cfg3.win 6).blk t).view.emb j = Cert.Sage.blockIdx t.val ht j := by
      funext a; apply Fin.ext
      match a with
      | ⟨0, _⟩ => show win3_6.index t (0 : Fin 2) * 5000 + 1 * (j 0).val = t.val * 5000 + (j 0).val; omega
      | ⟨1, _⟩ => show win3_6.index t (1 : Fin 2) * 64 + 1 * (j 1).val = (j 1).val; omega
    show k3_pay1 (F := Ideal) (iblk3 V c 0 t) (iblk3 V c 1 t) (iblk3 V c 2 t) (iblk3 V c 3 t) (iblk3 V c 4 t) (iblk3 V c 5 t) j
        = G (((cfg3.win 6).blk t).view.emb j)
    rw [hout]
    refine hpay t.val ht (iblk3 V c 0 t) (iblk3 V c 1 t) (iblk3 V c 2 t) (iblk3 V c 3 t) (iblk3 V c 4 t) (iblk3 V c 5 t) ?_ ?_ ?_ ?_ ?_ ?_ j
    · intro y
      show V c main_v96 (((cfg3.win 0).blk t).view.emb y) = V c main_v96 (Cert.Sage.blockIdx t.val ht y)
      refine congrArg _ (funext fun a => Fin.ext ?_)
      match a with
      | ⟨0, _⟩ => show win3_0.index t (0 : Fin 2) * 5000 + 1 * (y 0).val = t.val * 5000 + (y 0).val; omega
      | ⟨1, _⟩ => show win3_0.index t (1 : Fin 2) * 64 + 1 * (y 1).val = (y 1).val; omega
    · intro y
      show V c main_v83 (((cfg3.win 1).blk t).view.emb y) = V c main_v83 (Cert.Sage.blockIdx t.val ht y)
      refine congrArg _ (funext fun a => Fin.ext ?_)
      match a with
      | ⟨0, _⟩ => show win3_1.index t (0 : Fin 2) * 5000 + 1 * (y 0).val = t.val * 5000 + (y 0).val; omega
      | ⟨1, _⟩ => show win3_1.index t (1 : Fin 2) * 64 + 1 * (y 1).val = (y 1).val; omega
    · intro y
      show V c main_v98 (((cfg3.win 2).blk t).view.emb y) = V c main_v98 y
      refine congrArg _ (funext fun a => Fin.ext ?_)
      match a with
      | ⟨0, _⟩ => show win3_2.index t (0 : Fin 2) * 64 + 1 * (y 0).val = (y 0).val; omega
      | ⟨1, _⟩ => show win3_2.index t (1 : Fin 2) * 64 + 1 * (y 1).val = (y 1).val; omega
    · intro y
      show V c main_v100 (((cfg3.win 3).blk t).view.emb y) = V c main_v100 y
      refine congrArg _ (funext fun a => Fin.ext ?_)
      match a with
      | ⟨0, _⟩ => show win3_3.index t (0 : Fin 2) * 64 + 1 * (y 0).val = (y 0).val; omega
      | ⟨1, _⟩ => show win3_3.index t (1 : Fin 2) * 64 + 1 * (y 1).val = (y 1).val; omega
    · intro y
      show V c main_v105 (((cfg3.win 4).blk t).view.emb y) = V c main_v105 y
      refine congrArg _ (funext fun a => Fin.ext ?_)
      match a with
      | ⟨0, _⟩ => show win3_4.index t (0 : Fin 2) * 1 + 1 * (y 0).val = (y 0).val; omega
      | ⟨1, _⟩ => show win3_4.index t (1 : Fin 2) * 64 + 1 * (y 1).val = (y 1).val; omega
    · intro y
      show V c main_v106 (((cfg3.win 5).blk t).view.emb y) = V c main_v106 y
      refine congrArg _ (funext fun a => Fin.ext ?_)
      match a with
      | ⟨0, _⟩ => show win3_5.index t (0 : Fin 2) * 1 + 1 * (y 0).val = (y 0).val; omega
      | ⟨1, _⟩ => show win3_5.index t (1 : Fin 2) * 64 + 1 * (y 1).val = (y 1).val; omega
  · -- every row lies in the block of the point that is its quotient by 5000
    have hi0 : (i 0).val < 50000 := (i 0).isLt
    have hi1 : (i 1).val < 64 := (i 1).isLt
    have hN : cfg3.N = 10 := N_3
    let t : Fin cfg3.N := ⟨(i 0).val / 5000, by rw [hN]; omega⟩
    obtain ⟨e00, e01, e10, e11, e20, e21, e30, e31, e40, e41, e50, e51, e60, e61, ht⟩ := idx3 t
    have htv : t.val = (i 0).val / 5000 := rfl
    refine ⟨t, flush3_6 t, ?_⟩
    rw [mem_blk3]
    intro a
    match a with
    | ⟨0, _⟩ => show win3_6.index t (0 : Fin 2) * 5000 ≤ (i 0).val ∧ (i 0).val < win3_6.index t (0 : Fin 2) * 5000 + 5000; omega
    | ⟨1, _⟩ => show win3_6.index t (1 : Fin 2) * 64 ≤ (i 1).val ∧ (i 1).val < win3_6.index t (1 : Fin 2) * 64 + 64; omega

end Cert.Sage.Ker

end
-- ==== Proof.KerHost.lean ====
/-
  The host operations between the launches, read at the buffers a launch takes.

  Before launch k the host gathers the previous layer's rows at the edges' sources, scatter-adds them at the
  destinations, scales each row by the reciprocal of its clamped indegree, and slices layer k's two matrices, its
  bias row and its slope row out of the stacked parameters (the two rows made [1, 64]). Each lemma reads ONE buffer
  after such a stretch from ANY contents `U` at its entry: the operations' composed term over `U`'s buffers is the
  specification's function, with nothing opened. The first stretch also computes what every layer reuses — the
  edges' sources and destinations and the degree reciprocal — and no later stretch writes those or an argument.
-/
import proofs.«121877_j6365141532718_1_alg».proof.Proof.Gen.KernelIdeal.Launch
import proofs.«121877_j6365141532718_1_alg».proof.Proof.Layer
import Idealize.ShloMosaic.Lib.StableHlo.Run

set_option maxRecDepth 16384

noncomputable section

namespace Cert.Sage.Ker

open Cert.KernelIdeal Cert.KernelIdeal.Gen
open Idealize.ShloMosaic Idealize.ShloMosaic.TcCoe Idealize.SL.Sem Idealize.ShloMosaic.StableHlo
open Cert.Sage

variable [Cert.ReferenceIdeal.Facts₀]

/-- A row as a launch takes it: the `[64]` row made a `[1, 64]` array. -/
def blockRow (r : Row) : Vec Ideal S1x64 .f32 := shapeCast S1x64 r Cert.KernelIdeal.Facts₀.shapeCasts_S64_S1x64

/-- What every layer reuses, held by the contents `U`: the edges' sources and destinations, the degree reciprocal,
    and the four stacked parameter arrays. -/
structure Carried (U : Valuation τ sig (Elt Ideal)) (e : Edges) (Wl Wr : Mats) (B A : Rows) : Prop where
  v1 : U (Proc.devRef .tc main_v1) = src e
  v3 : U (Proc.devRef .tc main_v3) = dst e
  v11 : U (Proc.devRef .tc main_v11) = degInv e
  a2 : U (Proc.devRef .tc main_arg2) = Wl
  a3 : U (Proc.devRef .tc main_arg3) = Wr
  a4 : U (Proc.devRef .tc main_arg4) = B
  a5 : U (Proc.devRef .tc main_arg5) = A

/-! ## The first stretch: from the launch contents -/

set_option maxHeartbeats 4000000 in
theorem s0_v1 (U : Valuation τ sig (Elt Ideal)) : after hostOps0 U (Proc.devRef .tc main_v1) = src (U (Proc.devRef .tc main_arg1)) := by
  after_results; rfl
set_option maxHeartbeats 4000000 in
theorem s0_v3 (U : Valuation τ sig (Elt Ideal)) : after hostOps0 U (Proc.devRef .tc main_v3) = dst (U (Proc.devRef .tc main_arg1)) := by
  after_results; rfl
set_option maxHeartbeats 4000000 in
theorem s0_v11 (U : Valuation τ sig (Elt Ideal)) : after hostOps0 U (Proc.devRef .tc main_v11) = degInv (U (Proc.devRef .tc main_arg1)) := by
  after_results; rfl
set_option maxHeartbeats 4000000 in
theorem s0_agg (U : Valuation τ sig (Elt Ideal)) :
    after hostOps0 U (Proc.devRef .tc main_v24) = agg (U (Proc.devRef .tc main_arg1)) (U (Proc.devRef .tc main_arg0)) := by
  after_results; rfl
set_option maxHeartbeats 4000000 in
theorem s0_x (U : Valuation τ sig (Elt Ideal)) : after hostOps0 U (Proc.devRef .tc main_arg0) = U (Proc.devRef .tc main_arg0) := by
  after_results
set_option maxHeartbeats 4000000 in
theorem s0_a2 (U : Valuation τ sig (Elt Ideal)) : after hostOps0 U (Proc.devRef .tc main_arg2) = U (Proc.devRef .tc main_arg2) := by
  after_results
set_option maxHeartbeats 4000000 in
theorem s0_a3 (U : Valuation τ sig (Elt Ideal)) : after hostOps0 U (Proc.devRef .tc main_arg3) = U (Proc.devRef .tc main_arg3) := by
  after_results
set_option maxHeartbeats 4000000 in
theorem s0_a4 (U : Valuation τ sig (Elt Ideal)) : after hostOps0 U (Proc.devRef .tc main_arg4) = U (Proc.devRef .tc main_arg4) := by
  after_results
set_option maxHeartbeats 4000000 in
theorem s0_a5 (U : Valuation τ sig (Elt Ideal)) : after hostOps0 U (Proc.devRef .tc main_arg5) = U (Proc.devRef .tc main_arg5) := by
  after_results

set_option maxHeartbeats 4000000 in
theorem s0_wl (U : Valuation τ sig (Elt Ideal)) : after hostOps0 U (Proc.devRef .tc main_v26) = mat0 (U (Proc.devRef .tc main_arg2)) := by
  after_results; rfl
set_option maxHeartbeats 4000000 in
theorem s0_wr (U : Valuation τ sig (Elt Ideal)) : after hostOps0 U (Proc.devRef .tc main_v28) = mat0 (U (Proc.devRef .tc main_arg3)) := by
  after_results; rfl
set_option maxHeartbeats 4000000 in
theorem s0_b (U : Valuation τ sig (Elt Ideal)) : after hostOps0 U (Proc.devRef .tc main_v33) = blockRow (row0 (U (Proc.devRef .tc main_arg4))) := by
  after_results; rfl
set_option maxHeartbeats 4000000 in
theorem s0_a (U : Valuation τ sig (Elt Ideal)) : after hostOps0 U (Proc.devRef .tc main_v34) = blockRow (row0 (U (Proc.devRef .tc main_arg5))) := by
  after_results; rfl

/-- After the first stretch the contents hold what every layer reuses, as functions of the launch contents. -/
theorem carried0 (U : Valuation τ sig (Elt Ideal)) :
    Carried (after hostOps0 U) (U (Proc.devRef .tc main_arg1)) (U (Proc.devRef .tc main_arg2)) (U (Proc.devRef .tc main_arg3)) (U (Proc.devRef .tc main_arg4)) (U (Proc.devRef .tc main_arg5)) :=
  ⟨s0_v1 U, s0_v3 U, s0_v11 U, s0_a2 U, s0_a3 U, s0_a4 U, s0_a5 U⟩

/-! ## Stretch 1: between launch 0 and launch 1 -/

set_option maxHeartbeats 4000000 in
theorem s1_agg (U : Valuation τ sig (Elt Ideal)) (e : Edges) (x : Nodes)
    (h1 : U (Proc.devRef .tc main_v1) = src e) (h3 : U (Proc.devRef .tc main_v3) = dst e) (h11 : U (Proc.devRef .tc main_v11) = degInv e)
    (hx : U (Proc.devRef .tc main_v35) = x) :
    after hostOps1 U (Proc.devRef .tc main_v48) = agg e x := by
  after_results
  rw [h1, h3, h11, hx]
  rfl
set_option maxHeartbeats 4000000 in
theorem s1_x (U : Valuation τ sig (Elt Ideal)) : after hostOps1 U (Proc.devRef .tc main_v35) = U (Proc.devRef .tc main_v35) := by
  after_results

set_option maxHeartbeats 4000000 in
theorem s1_wl (U : Valuation τ sig (Elt Ideal)) : after hostOps1 U (Proc.devRef .tc main_v50) = mat1 (U (Proc.devRef .tc main_arg2)) := by
  after_results; rfl
set_option maxHeartbeats 4000000 in
theorem s1_wr (U : Valuation τ sig (Elt Ideal)) : after hostOps1 U (Proc.devRef .tc main_v52) = mat1 (U (Proc.devRef .tc main_arg3)) := by
  after_results; rfl
set_option maxHeartbeats 4000000 in
theorem s1_b (U : Valuation τ sig (Elt Ideal)) : after hostOps1 U (Proc.devRef .tc main_v57) = blockRow (row1 (U (Proc.devRef .tc main_arg4))) := by
  after_results; rfl
set_option maxHeartbeats 4000000 in
theorem s1_a (U : Valuation τ sig (Elt Ideal)) : after hostOps1 U (Proc.devRef .tc main_v58) = blockRow (row1 (U (Proc.devRef .tc main_arg5))) := by
  after_results; rfl
set_option maxHeartbeats 4000000 in
theorem s1_keep_v1 (U : Valuation τ sig (Elt Ideal)) : after hostOps1 U (Proc.devRef .tc main_v1) = U (Proc.devRef .tc main_v1) := by
  after_results
set_option maxHeartbeats 4000000 in
theorem s1_keep_v3 (U : Valuation τ sig (Elt Ideal)) : after hostOps1 U (Proc.devRef .tc main_v3) = U (Proc.devRef .tc main_v3) := by
  after_results
set_option maxHeartbeats 4000000 in
theorem s1_keep_v11 (U : Valuation τ sig (Elt Ideal)) : after hostOps1 U (Proc.devRef .tc main_v11) = U (Proc.devRef .tc main_v11) := by
  after_results
set_option maxHeartbeats 4000000 in
theorem s1_keep_arg2 (U : Valuation τ sig (Elt Ideal)) : after hostOps1 U (Proc.devRef .tc main_arg2) = U (Proc.devRef .tc main_arg2) := by
  after_results
set_option maxHeartbeats 4000000 in
theorem s1_keep_arg3 (U : Valuation τ sig (Elt Ideal)) : after hostOps1 U (Proc.devRef .tc main_arg3) = U (Proc.devRef .tc main_arg3) := by
  after_results
set_option maxHeartbeats 4000000 in
theorem s1_keep_arg4 (U : Valuation τ sig (Elt Ideal)) : after hostOps1 U (Proc.devRef .tc main_arg4) = U (Proc.devRef .tc main_arg4) := by
  after_results
set_option maxHeartbeats 4000000 in
theorem s1_keep_arg5 (U : Valuation τ sig (Elt Ideal)) : after hostOps1 U (Proc.devRef .tc main_arg5) = U (Proc.devRef .tc main_arg5) := by
  after_results

/-- Stretch 1 writes none of what every layer reuses. -/
theorem carried1 (U : Valuation τ sig (Elt Ideal)) (e : Edges) (Wl Wr : Mats) (B A : Rows) (h : Carried U e Wl Wr B A) :
    Carried (after hostOps1 U) e Wl Wr B A :=
  ⟨(s1_keep_v1 U).trans h.v1, (s1_keep_v3 U).trans h.v3, (s1_keep_v11 U).trans h.v11,
   (s1_keep_arg2 U).trans h.a2, (s1_keep_arg3 U).trans h.a3, (s1_keep_arg4 U).trans h.a4, (s1_keep_arg5 U).trans h.a5⟩

/-! ## Stretch 2: between launch 1 and launch 2 -/

set_option maxHeartbeats 4000000 in
theorem s2_agg (U : Valuation τ sig (Elt Ideal)) (e : Edges) (x : Nodes)
    (h1 : U (Proc.devRef .tc main_v1) = src e) (h3 : U (Proc.devRef .tc main_v3) = dst e) (h11 : U (Proc.devRef .tc main_v11) = degInv e)
    (hx : U (Proc.devRef .tc main_v59) = x) :
    after hostOps2 U (Proc.devRef .tc main_v72) = agg e x := by
  after_results
  rw [h1, h3, h11, hx]
  rfl
set_option maxHeartbeats 4000000 in
theorem s2_x (U : Valuation τ sig (Elt Ideal)) : after hostOps2 U (Proc.devRef .tc main_v59) = U (Proc.devRef .tc main_v59) := by
  after_results

set_option maxHeartbeats 4000000 in
theorem s2_wl (U : Valuation τ sig (Elt Ideal)) : after hostOps2 U (Proc.devRef .tc main_v74) = mat2 (U (Proc.devRef .tc main_arg2)) := by
  after_results; rfl
set_option maxHeartbeats 4000000 in
theorem s2_wr (U : Valuation τ sig (Elt Ideal)) : after hostOps2 U (Proc.devRef .tc main_v76) = mat2 (U (Proc.devRef .tc main_arg3)) := by
  after_results; rfl
set_option maxHeartbeats 4000000 in
theorem s2_b (U : Valuation τ sig (Elt Ideal)) : after hostOps2 U (Proc.devRef .tc main_v81) = blockRow (row2 (U (Proc.devRef .tc main_arg4))) := by
  after_results; rfl
set_option maxHeartbeats 4000000 in
theorem s2_a (U : Valuation τ sig (Elt Ideal)) : after hostOps2 U (Proc.devRef .tc main_v82) = blockRow (row2 (U (Proc.devRef .tc main_arg5))) := by
  after_results; rfl
set_option maxHeartbeats 4000000 in
theorem s2_keep_v1 (U : Valuation τ sig (Elt Ideal)) : after hostOps2 U (Proc.devRef .tc main_v1) = U (Proc.devRef .tc main_v1) := by
  after_results
set_option maxHeartbeats 4000000 in
theorem s2_keep_v3 (U : Valuation τ sig (Elt Ideal)) : after hostOps2 U (Proc.devRef .tc main_v3) = U (Proc.devRef .tc main_v3) := by
  after_results
set_option maxHeartbeats 4000000 in
theorem s2_keep_v11 (U : Valuation τ sig (Elt Ideal)) : after hostOps2 U (Proc.devRef .tc main_v11) = U (Proc.devRef .tc main_v11) := by
  after_results
set_option maxHeartbeats 4000000 in
theorem s2_keep_arg2 (U : Valuation τ sig (Elt Ideal)) : after hostOps2 U (Proc.devRef .tc main_arg2) = U (Proc.devRef .tc main_arg2) := by
  after_results
set_option maxHeartbeats 4000000 in
theorem s2_keep_arg3 (U : Valuation τ sig (Elt Ideal)) : after hostOps2 U (Proc.devRef .tc main_arg3) = U (Proc.devRef .tc main_arg3) := by
  after_results
set_option maxHeartbeats 4000000 in
theorem s2_keep_arg4 (U : Valuation τ sig (Elt Ideal)) : after hostOps2 U (Proc.devRef .tc main_arg4) = U (Proc.devRef .tc main_arg4) := by
  after_results
set_option maxHeartbeats 4000000 in
theorem s2_keep_arg5 (U : Valuation τ sig (Elt Ideal)) : after hostOps2 U (Proc.devRef .tc main_arg5) = U (Proc.devRef .tc main_arg5) := by
  after_results

/-- Stretch 2 writes none of what every layer reuses. -/
theorem carried2 (U : Valuation τ sig (Elt Ideal)) (e : Edges) (Wl Wr : Mats) (B A : Rows) (h : Carried U e Wl Wr B A) :
    Carried (after hostOps2 U) e Wl Wr B A :=
  ⟨(s2_keep_v1 U).trans h.v1, (s2_keep_v3 U).trans h.v3, (s2_keep_v11 U).trans h.v11,
   (s2_keep_arg2 U).trans h.a2, (s2_keep_arg3 U).trans h.a3, (s2_keep_arg4 U).trans h.a4, (s2_keep_arg5 U).trans h.a5⟩

/-! ## Stretch 3: between launch 2 and launch 3 -/

set_option maxHeartbeats 4000000 in
theorem s3_agg (U : Valuation τ sig (Elt Ideal)) (e : Edges) (x : Nodes)
    (h1 : U (Proc.devRef .tc main_v1) = src e) (h3 : U (Proc.devRef .tc main_v3) = dst e) (h11 : U (Proc.devRef .tc main_v11) = degInv e)
    (hx : U (Proc.devRef .tc main_v83) = x) :
    after hostOps3 U (Proc.devRef .tc main_v96) = agg e x := by
  after_results
  rw [h1, h3, h11, hx]
  rfl
set_option maxHeartbeats 4000000 in
theorem s3_x (U : Valuation τ sig (Elt Ideal)) : after hostOps3 U (Proc.devRef .tc main_v83) = U (Proc.devRef .tc main_v83) := by
  after_results

set_option maxHeartbeats 4000000 in
theorem s3_wl (U : Valuation τ sig (Elt Ideal)) : after hostOps3 U (Proc.devRef .tc main_v98) = mat3 (U (Proc.devRef .tc main_arg2)) := by
  after_results; rfl
set_option maxHeartbeats 4000000 in
theorem s3_wr (U : Valuation τ sig (Elt Ideal)) : after hostOps3 U (Proc.devRef .tc main_v100) = mat3 (U (Proc.devRef .tc main_arg3)) := by
  after_results; rfl
set_option maxHeartbeats 4000000 in
theorem s3_b (U : Valuation τ sig (Elt Ideal)) : after hostOps3 U (Proc.devRef .tc main_v105) = blockRow (row3 (U (Proc.devRef .tc main_arg4))) := by
  after_results; rfl
set_option maxHeartbeats 4000000 in
theorem s3_a (U : Valuation τ sig (Elt Ideal)) : after hostOps3 U (Proc.devRef .tc main_v106) = blockRow (row3 (U (Proc.devRef .tc main_arg5))) := by
  after_results; rfl
set_option maxHeartbeats 4000000 in
theorem s3_keep_v1 (U : Valuation τ sig (Elt Ideal)) : after hostOps3 U (Proc.devRef .tc main_v1) = U (Proc.devRef .tc main_v1) := by
  after_results
set_option maxHeartbeats 4000000 in
theorem s3_keep_v3 (U : Valuation τ sig (Elt Ideal)) : after hostOps3 U (Proc.devRef .tc main_v3) = U (Proc.devRef .tc main_v3) := by
  after_results
set_option maxHeartbeats 4000000 in
theorem s3_keep_v11 (U : Valuation τ sig (Elt Ideal)) : after hostOps3 U (Proc.devRef .tc main_v11) = U (Proc.devRef .tc main_v11) := by
  after_results
set_option maxHeartbeats 4000000 in
theorem s3_keep_arg2 (U : Valuation τ sig (Elt Ideal)) : after hostOps3 U (Proc.devRef .tc main_arg2) = U (Proc.devRef .tc main_arg2) := by
  after_results
set_option maxHeartbeats 4000000 in
theorem s3_keep_arg3 (U : Valuation τ sig (Elt Ideal)) : after hostOps3 U (Proc.devRef .tc main_arg3) = U (Proc.devRef .tc main_arg3) := by
  after_results
set_option maxHeartbeats 4000000 in
theorem s3_keep_arg4 (U : Valuation τ sig (Elt Ideal)) : after hostOps3 U (Proc.devRef .tc main_arg4) = U (Proc.devRef .tc main_arg4) := by
  after_results
set_option maxHeartbeats 4000000 in
theorem s3_keep_arg5 (U : Valuation τ sig (Elt Ideal)) : after hostOps3 U (Proc.devRef .tc main_arg5) = U (Proc.devRef .tc main_arg5) := by
  after_results

/-- Stretch 3 writes none of what every layer reuses. -/
theorem carried3 (U : Valuation τ sig (Elt Ideal)) (e : Edges) (Wl Wr : Mats) (B A : Rows) (h : Carried U e Wl Wr B A) :
    Carried (after hostOps3 U) e Wl Wr B A :=
  ⟨(s3_keep_v1 U).trans h.v1, (s3_keep_v3 U).trans h.v3, (s3_keep_v11 U).trans h.v11,
   (s3_keep_arg2 U).trans h.a2, (s3_keep_arg3 U).trans h.a3, (s3_keep_arg4 U).trans h.a4, (s3_keep_arg5 U).trans h.a5⟩

end Cert.Sage.Ker

end
-- ==== Proof.LibMatProduct.lean ====
import Idealize.ShloMosaic.Lib.ValueIdx
import Idealize.ShloMosaic.PureOps.Ideal.Laws

/-!
# The matrix product `[N, K] · [K, C]` on the host, read at an index

At the exact (extended-real) values a host `dot_general` that contracts axis 1 of its left operand with axis 0 of its
right operand, with no batch axes, is the textbook matrix product: element `(r, c)` of the result is
`∑ k, X[r, k] * W[k, c]`, a sum over the one contraction coordinate `k < K` in which no rounding and no order of
summation is left.
-/

open Idealize.ShloMosaic Idealize.ShloMosaic.ValueIdx

namespace Cert.Lib

/-- The dimension numbers of the matrix product `[N, K] · [K, C] → [N, C]`: the left operand's axis 1 contracts with the
    right operand's axis 0; the left operand's axis 0 and the right operand's axis 1 are the result's two axes, in that
    order; no batch axes. The conditions `wf` are decided once the extents are literals. -/
abbrev matDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

section
variable {N K C : Nat} (wf : DotDims.WF ⟨2, ![N, K]⟩ ⟨2, ![K, C]⟩ ⟨2, ![N, C]⟩ [1] [0] [0] [1] [] [])

/-- The left operand is read at the result's row: its axis 0 is non-contracting, the first of the result's axes. -/
theorem matDims_lhsIdx_zero (i : (⟨2, ![N, C]⟩ : Shape).Idx) (q : (matDims N K C wf).contr.Idx) :
    ((matDims N K C wf).lhsIdx i q 0).val = (i 0).val := by
  unfold DotDims.lhsIdx
  rw [dif_neg (show ¬(0 : Fin 2) ∈ (matDims N K C wf).lhsBatch from List.not_mem_nil),
    dif_pos (show (0 : Fin 2) ∈ (matDims N K C wf).lhsNonContracting from List.mem_singleton.mpr rfl)]
  rfl

/-- … and, on its contracting axis 1, at the contraction coordinate. -/
theorem matDims_lhsIdx_one (i : (⟨2, ![N, C]⟩ : Shape).Idx) (q : (matDims N K C wf).contr.Idx) :
    ((matDims N K C wf).lhsIdx i q 1).val = (q ⟨0, Nat.one_pos⟩).val :=
  (matDims N K C wf).lhsIdx_val_of_single rfl i q

/-- The right operand is read, on its contracting axis 0, at the contraction coordinate … -/
theorem matDims_rhsIdx_zero (i : (⟨2, ![N, C]⟩ : Shape).Idx) (q : (matDims N K C wf).contr.Idx) :
    ((matDims N K C wf).rhsIdx i q 0).val = (q ⟨0, Nat.one_pos⟩).val :=
  (matDims N K C wf).rhsIdx_val_of_single rfl i q

/-- … and at the result's column: its axis 1 is non-contracting, the second of the result's axes. -/
theorem matDims_rhsIdx_one (i : (⟨2, ![N, C]⟩ : Shape).Idx) (q : (matDims N K C wf).contr.Idx) :
    ((matDims N K C wf).rhsIdx i q 1).val = (i 1).val := by
  unfold DotDims.rhsIdx
  rw [dif_neg (show ¬(1 : Fin 2) ∈ (matDims N K C wf).rhsBatch from List.not_mem_nil),
    dif_pos (show (1 : Fin 2) ∈ (matDims N K C wf).rhsNonContracting from List.mem_singleton.mpr rfl)]
  rfl

set_option maxHeartbeats 400000 in
/-- THE HOST'S MATRIX PRODUCT READ AT `(r, c)`: `∑ k < K, X[r, k] * W[k, c]`. The contraction index set has one axis of
    extent `K`; the sum over it is re-indexed by its one coordinate, and the two operand indices at `(r, c)` and `k`
    are `(r, k)` and `(k, c)`. -/
theorem dotGeneral_matDims_apply (p : Option ContractPrecision)
    (X : FVec Ideal ⟨2, ![N, K]⟩ .f32) (W : FVec Ideal ⟨2, ![K, C]⟩ .f32) (i : (⟨2, ![N, C]⟩ : Shape).Idx) :
    Host.dotGeneral (F := Ideal) (matDims N K C wf) p X W i
      = ∑ k : Fin K, X (ix2 (⟨(i 0).val, idx2_lt0 i⟩ : Fin N) k) * W (ix2 k (⟨(i 1).val, idx2_lt1 i⟩ : Fin C)) := by
  simp only [Host.dotGeneral]
  rw [Ideal.dotGeneral_apply, ← Equiv.sum_comp (contrEquiv1 (matDims N K C wf) K rfl rfl).symm]
  refine Finset.sum_congr rfl fun k _ => ?_
  have hk := contrEquiv1_symm_val (matDims N K C wf) K rfl rfl k
  have el : (matDims N K C wf).lhsIdx i ((contrEquiv1 (matDims N K C wf) K rfl rfl).symm k)
      = ix2 (⟨(i 0).val, idx2_lt0 i⟩ : Fin N) k := funext fun a => Fin.ext (by
    match a with
    | ⟨0, _⟩ => exact matDims_lhsIdx_zero wf _ _
    | ⟨1, _⟩ => exact (matDims_lhsIdx_one wf _ _).trans hk)
  have er : (matDims N K C wf).rhsIdx i ((contrEquiv1 (matDims N K C wf) K rfl rfl).symm k)
      = ix2 k (⟨(i 1).val, idx2_lt1 i⟩ : Fin C) := funext fun a => Fin.ext (by
    match a with
    | ⟨0, _⟩ => exact (matDims_rhsIdx_zero wf _ _).trans hk
    | ⟨1, _⟩ => exact matDims_rhsIdx_one wf _ _)
  rw [el, er]

end

end Cert.Lib
-- ==== Proof.LibMatmulZero.lean ====
import proofs.«121877_j6365141532718_1_alg».proof.Proof.LibMatProduct

/-!
# The matrix product `[N, K] · [K, C]` of the matrix unit into a zero accumulator, read at an index

At the exact (extended-real) values a matrix-unit product that contracts axis 1 of its left operand with axis 0 of its
right operand, with no batch axes, accumulated into the all-zero array, is the textbook matrix product: element
`(r, c)` of the result is `∑ k, X[r, k] * W[k, c]`, the same finite sum over the one contraction coordinate `k < K`
that the host's product is. The operands' float formats play no part: every format holds the same extended reals.
-/

open Idealize.ShloMosaic Idealize.ShloMosaic.ValueIdx

namespace Cert.Lib

section
variable {N K C : Nat} (wf : DotDims.WF ⟨2, ![N, K]⟩ ⟨2, ![K, C]⟩ ⟨2, ![N, C]⟩ [1] [0] [0] [1] [] [])

set_option maxHeartbeats 400000 in
/-- THE MATRIX UNIT'S PRODUCT INTO ZERO READ AT `(r, c)`: `∑ k < K, X[r, k] * W[k, c]`. The zero accumulator adds
    nothing; the contraction index set has one axis of extent `K`, the sum over it is re-indexed by its one coordinate,
    and the two operand indices at `(r, c)` and `k` are `(r, k)` and `(k, c)`. -/
theorem matmul_matDims_zero_apply (p : Option ContractPrecision) {φ₁ φ₂ : FTy}
    (X : FVec Ideal ⟨2, ![N, K]⟩ φ₁) (W : FVec Ideal ⟨2, ![K, C]⟩ φ₂) (i : (⟨2, ![N, C]⟩ : Shape).Idx) :
    matmul (F := Ideal) (matDims N K C wf) p X W (constant (F := Ideal) ⟨2, ![N, C]⟩ .f32 0x00000000#32) i
      = ∑ k : Fin K, X (ix2 (⟨(i 0).val, idx2_lt0 i⟩ : Fin N) k) * W (ix2 k (⟨(i 1).val, idx2_lt1 i⟩ : Fin C)) := by
  simp only [matmul]
  rw [Ideal.matmul_constant_zero_apply, ← Equiv.sum_comp (contrEquiv1 (matDims N K C wf) K rfl rfl).symm]
  refine Finset.sum_congr rfl fun k _ => ?_
  have hk := contrEquiv1_symm_val (matDims N K C wf) K rfl rfl k
  have el : (matDims N K C wf).lhsIdx i ((contrEquiv1 (matDims N K C wf) K rfl rfl).symm k)
      = ix2 (⟨(i 0).val, idx2_lt0 i⟩ : Fin N) k := funext fun a => Fin.ext (by
    match a with
    | ⟨0, _⟩ => exact matDims_lhsIdx_zero wf _ _
    | ⟨1, _⟩ => exact (matDims_lhsIdx_one wf _ _).trans hk)
  have er : (matDims N K C wf).rhsIdx i ((contrEquiv1 (matDims N K C wf) K rfl rfl).symm k)
      = ix2 k (⟨(i 1).val, idx2_lt1 i⟩ : Fin C) := funext fun a => Fin.ext (by
    match a with
    | ⟨0, _⟩ => exact (matDims_rhsIdx_zero wf _ _).trans hk
    | ⟨1, _⟩ => exact matDims_rhsIdx_one wf _ _)
  rw [el, er]

end

end Cert.Lib
-- ==== Proof.LibBroadcastRead.lean ====
/-
  Three broadcasts read at an index, over extents that are natural-number variables: a vector made a
  one-column array, a one-column array spread along the lanes, and a scalar spread over any shape.
-/
import Idealize.ShloMosaic.Lib.Pipeline.Value
import Idealize.ShloMosaic.Lib.ValueIdx

noncomputable section

namespace Cert.Lib

open Idealize.ShloMosaic Idealize.ShloMosaic.ValueIdx

variable {α : Type}

/-- A vector of `N` entries made an `[N, 1]` array holds, in row `r`, the vector's entry `r`. -/
theorem bcastCol_apply {N : Nat} (h : (⟨1, ![N]⟩ : Shape).BroadcastsInDim ⟨2, ![N, 1]⟩ (![0] : Fin 1 → Fin 2))
    (x : (⟨1, ![N]⟩ : Shape).Idx → α) (i : (⟨2, ![N, 1]⟩ : Shape).Idx) :
    broadcastInDim ⟨2, ![N, 1]⟩ ![0] h x i = x (ix1 (⟨(i 0).val, idx2_lt0 i⟩ : Fin N)) := by
  refine broadcastInDim_apply _ h x i _ (fun a => ?_)
  match a with
  | ⟨0, _⟩ =>
    show (i 0).val = if N = 1 then 0 else (i 0).val
    split
    · have := idx2_lt0 i; omega
    · rfl

/-- An `[N, 1]` array spread along `C` lanes holds, at `(r, f)`, the column's entry for row `r`. -/
theorem bcastLanes_apply {N C : Nat} (h : (⟨2, ![N, 1]⟩ : Shape).BroadcastsInDim ⟨2, ![N, C]⟩ (![0, 1] : Fin 2 → Fin 2))
    (x : (⟨2, ![N, 1]⟩ : Shape).Idx → α) (i : (⟨2, ![N, C]⟩ : Shape).Idx) :
    broadcastInDim ⟨2, ![N, C]⟩ ![0, 1] h x i = x (ix2 (⟨(i 0).val, idx2_lt0 i⟩ : Fin N) (0 : Fin 1)) := by
  refine broadcastInDim_apply _ h x i _ (fun a => ?_)
  match a with
  | ⟨0, _⟩ =>
    show (i 0).val = if N = 1 then 0 else (i 0).val
    split
    · have := idx2_lt0 i; omega
    · rfl
  | ⟨1, _⟩ =>
    show 0 = if (1 : Nat) = 1 then 0 else (i 1).val
    rw [if_pos rfl]

/-- A scalar spread over a shape holds the scalar everywhere. -/
theorem bcastScalar_apply {t : Shape} (h : (⟨0, ![]⟩ : Shape).BroadcastsInDim t (![] : Fin 0 → Fin t.rank))
    (x : (⟨0, ![]⟩ : Shape).Idx → α) (i : t.Idx) :
    broadcastInDim t ![] h x i = x ix0 :=
  broadcastInDim_apply _ h x i _ (fun a => a.elim0)

end Cert.Lib

end
-- ==== Proof.DenseBlock.lean ====
/-
  One block of the dense half of a layer.

  The kernel body works on a block of 5000 rows: it multiplies the block of aggregated rows by `Wl` and the block of the
  nodes' own rows by `Wr` (each product accumulated into zero), adds the two, adds the bias row to every row of the
  block, and passes the result `h` through the leaky rectifier `h ≥ 0 ? h : slope · h`, the slope row likewise repeated
  down the block. The network's dense layer does the same on all 50000 rows at once. Entry `(p, c)` of block `T` is
  entry `(T · 5000 + p, c)` of the whole array: both matrix products there are the same sum
  `∑ k < 64, M[T · 5000 + p, k] · W[k, c]`, a row of the weight-independent operand being all the product reads, and
  both row broadcasts read the row's entry `c`. No finiteness is used: the two sides are the same expression in the
  extended reals.
-/
import proofs.«121877_j6365141532718_1_alg».proof.Proof.Layer
import proofs.«121877_j6365141532718_1_alg».proof.Proof.Gen.KernelIdeal.Skeleton
import proofs.«121877_j6365141532718_1_alg».proof.Proof.LibMatProduct
import proofs.«121877_j6365141532718_1_alg».proof.Proof.LibMatmulZero
import proofs.«121877_j6365141532718_1_alg».proof.Proof.LibBroadcastRead
import Idealize.ShloMosaic.Lib.ValueLayout

noncomputable section

namespace Cert.Sage

open Idealize.ShloMosaic Idealize.ShloMosaic.ValueIdx Cert.Lib

/-! ## A row made a one-row array, and a one-row array repeated down the rows -/

section Rows
variable {α : Type}

/-- A vector of `C` entries made a `[1, C]` array holds, in column `q` of its one row, the vector's entry `q`. -/
theorem bcastRow_apply {C : Nat} (h : (⟨1, ![C]⟩ : Shape).BroadcastsInDim ⟨2, ![1, C]⟩ (![1] : Fin 1 → Fin 2))
    (x : (⟨1, ![C]⟩ : Shape).Idx → α) (u : Fin 1) (q : Fin C) :
    broadcastInDim ⟨2, ![1, C]⟩ ![1] h x (ix2 u q) = x (ix1 q) := by
  refine broadcastInDim_apply _ h x _ _ (fun a => ?_)
  match a with
  | ⟨0, _⟩ =>
    show q.val = if C = 1 then 0 else q.val
    split
    · have := q.isLt; omega
    · rfl

/-- A `[1, C]` array repeated down `N` rows holds, at `(r, c)`, the one row's entry `c`. -/
theorem bcastRows_apply {N C : Nat} (h : (⟨2, ![1, C]⟩ : Shape).BroadcastsInDim ⟨2, ![N, C]⟩ (![0, 1] : Fin 2 → Fin 2))
    (x : (⟨2, ![1, C]⟩ : Shape).Idx → α) (i : (⟨2, ![N, C]⟩ : Shape).Idx) :
    broadcastInDim ⟨2, ![N, C]⟩ ![0, 1] h x i = x (ix2 (0 : Fin 1) (⟨(i 1).val, idx2_lt1 i⟩ : Fin C)) := by
  refine broadcastInDim_apply _ h x i _ (fun a => ?_)
  match a with
  | ⟨0, _⟩ =>
    show 0 = if (1 : Nat) = 1 then 0 else (i 0).val
    rw [if_pos rfl]
  | ⟨1, _⟩ =>
    show (i 1).val = if C = 1 then 0 else (i 1).val
    split
    · have := idx2_lt1 i; omega
    · rfl

end Rows

/-- A row cast to a one-row array holds, in column `q`, the row's entry `q`. -/
theorem castRow_apply (r : Row)
    (h : Cert.KernelIdeal.S64.ShapeCasts Cert.KernelIdeal.S1x64) (q : Fin 64) :
    (shapeCast Cert.KernelIdeal.S1x64 r h) (ValueIdx.ix2 (0 : Fin 1) q) = r (ValueIdx.ix1 q) :=
  shapeCast_a_1a_apply r h 0 q

section Dense
variable [Cert.ReferenceIdeal.Facts₀]

/-- A row repeated down all the rows holds, at `(n, c)`, the row's entry `c`. -/
theorem everyRow_apply (r : Row) (i : Cert.ReferenceIdeal.S50000x64.Idx) :
    everyRow r i = r (ix1 (⟨(i 1).val, idx2_lt1 i⟩ : Fin 64)) := by
  unfold everyRow
  exact (bcastRows_apply _ _ i).trans (bcastRow_apply _ r 0 _)

/-! ## The two matrix products at an entry of a block -/

/-- THE BLOCK'S PRODUCT IS THE ARRAY'S, ROW FOR ROW. If `blk` is block `T` of the array `M`, the matrix unit's
    product `blk · w` into zero at `(p, c)` is the host's product `M · w` at `(T · 5000 + p, c)`: both are
    `∑ k < 64, M[T · 5000 + p, k] · w[k, c]` (the narrowing of the operands' format changes no value). -/
theorem blockProduct_eq (T : Nat) (hT : T < 10) (M : Nodes) (w : Mat)
    (blk : Vec Ideal Cert.KernelIdeal.S5000x64 .f32) (hM : ∀ y, blk y = M (blockIdx T hT y))
    (h1 : FTy.bits .bf16 < FTy.bits .f32) (p : Fin 5000) (q : Fin 64) :
    matmul (F := Ideal) Cert.KernelIdeal.dot_S5000x64_S64x64_S5000x64_1_0_0_1_n_n none
        (truncf .bf16 (blk : FVec Ideal Cert.KernelIdeal.S5000x64 .f32) h1)
        (truncf .bf16 (w : FVec Ideal Cert.KernelIdeal.S64x64 .f32) h1)
        (constant (F := Ideal) Cert.KernelIdeal.S5000x64 .f32 0x00000000#32) (ix2 p q)
      = Host.dotGeneral (F := Ideal) Cert.ReferenceIdeal.dot_S50000x64_S64x64_S50000x64_1_0_0_1_n_n none M w
          (blockIdx T hT (ix2 p q)) := by
  refine (matmul_matDims_zero_apply (N := 5000) (K := 64) (C := 64)
    Cert.KernelIdeal.dot_S5000x64_S64x64_S5000x64_1_0_0_1_n_n.wf none _ _ (ix2 p q)).trans ?_
  refine Eq.trans ?_ (dotGeneral_matDims_apply (N := 50000) (K := 64) (C := 64)
    Cert.ReferenceIdeal.dot_S50000x64_S64x64_S50000x64_1_0_0_1_n_n.wf none M w (blockIdx T hT (ix2 p q))).symm
  refine Finset.sum_congr rfl fun k _ => ?_
  show blk (ix2 p k) * w (ix2 k q) = M (blockIdx T hT (ix2 p k)) * w (ix2 k q)
  rw [hM (ix2 p k)]

/-! ## The body's payload -/

/-- The body's `h` on a block: `aBlk · Wl + xBlk · Wr + bias`, the bias row repeated down the block. -/
def blockAffine (aBlk xBlk : Vec Ideal Cert.KernelIdeal.S5000x64 .f32) (wl wr : Mat)
    (b2 : Vec Ideal Cert.KernelIdeal.S1x64 .f32) : FVec Ideal Cert.KernelIdeal.S5000x64 .f32 :=
  addf
    (addf
      (matmul (F := Ideal) Cert.KernelIdeal.dot_S5000x64_S64x64_S5000x64_1_0_0_1_n_n none
        (truncf .bf16 (aBlk : FVec Ideal Cert.KernelIdeal.S5000x64 .f32) Cert.KernelIdeal.Gen.bitsLt_bf16_f32)
        (truncf .bf16 (wl : FVec Ideal Cert.KernelIdeal.S64x64 .f32) Cert.KernelIdeal.Gen.bitsLt_bf16_f32)
        (constant (F := Ideal) Cert.KernelIdeal.S5000x64 .f32 0x00000000#32))
      (matmul (F := Ideal) Cert.KernelIdeal.dot_S5000x64_S64x64_S5000x64_1_0_0_1_n_n none
        (truncf .bf16 (xBlk : FVec Ideal Cert.KernelIdeal.S5000x64 .f32) Cert.KernelIdeal.Gen.bitsLt_bf16_f32)
        (truncf .bf16 (wr : FVec Ideal Cert.KernelIdeal.S64x64 .f32) Cert.KernelIdeal.Gen.bitsLt_bf16_f32)
        (constant (F := Ideal) Cert.KernelIdeal.S5000x64 .f32 0x00000000#32)))
    (broadcastTo Cert.KernelIdeal.S5000x64 (b2 : FVec Ideal Cert.KernelIdeal.S1x64 .f32)
      Cert.KernelIdeal.Gen.broadcasts_S1x64_S5000x64)

/-- The body's output on a block: the leaky rectifier of `blockAffine`, the slope row repeated down the block. -/
def blockDense (aBlk xBlk : Vec Ideal Cert.KernelIdeal.S5000x64 .f32) (wl wr : Mat)
    (b2 a2 : Vec Ideal Cert.KernelIdeal.S1x64 .f32) : FVec Ideal Cert.KernelIdeal.S5000x64 .f32 :=
  select
    (cmpf .oge (blockAffine aBlk xBlk wl wr b2)
      (broadcast Cert.KernelIdeal.S5000x64 (Scalar.ofBits (F := Ideal) .f32 0x00000000#32)))
    (blockAffine aBlk xBlk wl wr b2)
    (mulf (broadcastTo Cert.KernelIdeal.S5000x64 (a2 : FVec Ideal Cert.KernelIdeal.S1x64 .f32)
      Cert.KernelIdeal.Gen.broadcasts_S1x64_S5000x64) (blockAffine aBlk xBlk wl wr b2))

section Block
variable (T : Nat) (hT : T < 10) (A X : Nodes) (wl wr : Mat) (b slope : Row)
  (aBlk xBlk : Vec Ideal Cert.KernelIdeal.S5000x64 .f32) (b2 a2 : Vec Ideal Cert.KernelIdeal.S1x64 .f32)
  (hA : ∀ y, aBlk y = A (blockIdx T hT y)) (hX : ∀ y, xBlk y = X (blockIdx T hT y))
  (hb : ∀ q : Fin 64, b2 (ValueIdx.ix2 (0 : Fin 1) q) = b (ValueIdx.ix1 q))
  (ha : ∀ q : Fin 64, a2 (ValueIdx.ix2 (0 : Fin 1) q) = slope (ValueIdx.ix1 q))

include hA hX hb in
/-- The block's `h` at `(p, c)` is the array's at `(T · 5000 + p, c)`: the two products by `blockProduct_eq`, and the
    bias read at column `c` on both sides. -/
theorem blockAffine_apply (p : Fin 5000) (q : Fin 64) :
    blockAffine aBlk xBlk wl wr b2 (ix2 p q) = affine A X wl wr b (blockIdx T hT (ix2 p q)) := by
  have hbias : broadcastTo Cert.KernelIdeal.S5000x64 (b2 : FVec Ideal Cert.KernelIdeal.S1x64 .f32)
      Cert.KernelIdeal.Gen.broadcasts_S1x64_S5000x64 (ix2 p q) = everyRow b (blockIdx T hT (ix2 p q)) :=
    (broadcastTo_1b_ab_apply _ _ p q).trans ((hb q).trans (everyRow_apply b (blockIdx T hT (ix2 p q))).symm)
  unfold blockAffine affine
  simp only [addf_apply]
  rw [blockProduct_eq T hT A wl aBlk hA _ p q, blockProduct_eq T hT X wr xBlk hX _ p q, hbias]

include hA hX hb ha in
/-- The block's output at `j` is the dense layer's at the entry of the whole array where `j` sits. -/
theorem blockDense_apply (j : Cert.KernelIdeal.S5000x64.Idx) :
    blockDense aBlk xBlk wl wr b2 a2 j = dense A X wl wr b slope (blockIdx T hT j) := by
  obtain ⟨p, q, rfl⟩ : ∃ (p : Fin 5000) (q : Fin 64), j = ix2 p q := ⟨j 0, j 1, eq_ix2 j⟩
  have hpre := blockAffine_apply T hT A X wl wr b aBlk xBlk b2 hA hX hb p q
  have hs : broadcastTo Cert.KernelIdeal.S5000x64 (a2 : FVec Ideal Cert.KernelIdeal.S1x64 .f32)
      Cert.KernelIdeal.Gen.broadcasts_S1x64_S5000x64 (ix2 p q) = everyRow slope (blockIdx T hT (ix2 p q)) :=
    (broadcastTo_1b_ab_apply _ _ p q).trans ((ha q).trans (everyRow_apply slope (blockIdx T hT (ix2 p q))).symm)
  have hz : broadcast Cert.KernelIdeal.S5000x64 (Scalar.ofBits (F := Ideal) .f32 0x00000000#32) (ix2 p q)
      = broadcastInDim Cert.ReferenceIdeal.S50000x64 ![] Cert.ReferenceIdeal.Facts₀.bcast_S_S50000x64
          (constant (F := Ideal) Cert.ReferenceIdeal.S_ .f32 0x00000000#32) (blockIdx T hT (ix2 p q)) :=
    (bcastScalar_apply (t := Cert.ReferenceIdeal.S50000x64) Cert.ReferenceIdeal.Facts₀.bcast_S_S50000x64
      (constant (F := Ideal) Cert.ReferenceIdeal.S_ .f32 0x00000000#32) (blockIdx T hT (ix2 p q))).symm
  unfold blockDense dense prelu
  simp only [select_apply, cmpf_apply, mulf_apply]
  rw [hpre, hs, hz]

end Block

/-! ## The four bodies' payloads -/

section Payloads
variable (T : Nat) (hT : T < 10) (A X : Nodes) (wl wr : Mat) (b slope : Row)
  (aBlk xBlk : Vec Ideal Cert.KernelIdeal.S5000x64 .f32) (b2 a2 : Vec Ideal Cert.KernelIdeal.S1x64 .f32)
  (hA : ∀ y, aBlk y = A (blockIdx T hT y)) (hX : ∀ y, xBlk y = X (blockIdx T hT y))
  (hb : ∀ q : Fin 64, b2 (ValueIdx.ix2 (0 : Fin 1) q) = b (ValueIdx.ix1 q))
  (ha : ∀ q : Fin 64, a2 (ValueIdx.ix2 (0 : Fin 1) q) = slope (ValueIdx.ix1 q))

/-- Each body's payload is `blockDense` of its six loaded values: a cast of an array to its own shape is the array. -/
theorem k0_pay1_eq : Cert.KernelIdeal.Gen.k0_pay1 (F := Ideal) aBlk xBlk wl wr b2 a2 = blockDense aBlk xBlk wl wr b2 a2 := by
  unfold Cert.KernelIdeal.Gen.k0_pay1 blockDense blockAffine
  simp only [shapeCast_self]

theorem k1_pay1_eq : Cert.KernelIdeal.Gen.k1_pay1 (F := Ideal) aBlk xBlk wl wr b2 a2 = blockDense aBlk xBlk wl wr b2 a2 := by
  unfold Cert.KernelIdeal.Gen.k1_pay1 blockDense blockAffine
  simp only [shapeCast_self]

theorem k2_pay1_eq : Cert.KernelIdeal.Gen.k2_pay1 (F := Ideal) aBlk xBlk wl wr b2 a2 = blockDense aBlk xBlk wl wr b2 a2 := by
  unfold Cert.KernelIdeal.Gen.k2_pay1 blockDense blockAffine
  simp only [shapeCast_self]

theorem k3_pay1_eq : Cert.KernelIdeal.Gen.k3_pay1 (F := Ideal) aBlk xBlk wl wr b2 a2 = blockDense aBlk xBlk wl wr b2 a2 := by
  unfold Cert.KernelIdeal.Gen.k3_pay1 blockDense blockAffine
  simp only [shapeCast_self]

include hA hX hb ha

/-- Layer 0's body: its payload at entry `j` of block `T` is the dense layer at that entry of the whole array. -/
theorem pay0_eq_dense (j : Cert.KernelIdeal.S5000x64.Idx) :
    Cert.KernelIdeal.Gen.k0_pay1 (F := Ideal) aBlk xBlk wl wr b2 a2 j = dense A X wl wr b slope (blockIdx T hT j) :=
  (congrFun (k0_pay1_eq wl wr aBlk xBlk b2 a2) j).trans
    (blockDense_apply T hT A X wl wr b slope aBlk xBlk b2 a2 hA hX hb ha j)

/-- Layer 1's body. -/
theorem pay1_eq_dense (j : Cert.KernelIdeal.S5000x64.Idx) :
    Cert.KernelIdeal.Gen.k1_pay1 (F := Ideal) aBlk xBlk wl wr b2 a2 j = dense A X wl wr b slope (blockIdx T hT j) :=
  (congrFun (k1_pay1_eq wl wr aBlk xBlk b2 a2) j).trans
    (blockDense_apply T hT A X wl wr b slope aBlk xBlk b2 a2 hA hX hb ha j)

/-- Layer 2's body. -/
theorem pay2_eq_dense (j : Cert.KernelIdeal.S5000x64.Idx) :
    Cert.KernelIdeal.Gen.k2_pay1 (F := Ideal) aBlk xBlk wl wr b2 a2 j = dense A X wl wr b slope (blockIdx T hT j) :=
  (congrFun (k2_pay1_eq wl wr aBlk xBlk b2 a2) j).trans
    (blockDense_apply T hT A X wl wr b slope aBlk xBlk b2 a2 hA hX hb ha j)

/-- Layer 3's body. -/
theorem pay3_eq_dense (j : Cert.KernelIdeal.S5000x64.Idx) :
    Cert.KernelIdeal.Gen.k3_pay1 (F := Ideal) aBlk xBlk wl wr b2 a2 j = dense A X wl wr b slope (blockIdx T hT j) :=
  (congrFun (k3_pay1_eq wl wr aBlk xBlk b2 a2) j).trans
    (blockDense_apply T hT A X wl wr b slope aBlk xBlk b2 a2 hA hX hb ha j)

end Payloads

end Dense

end Cert.Sage

end
-- ==== Proof.KerDense.lean ====
/-
  Each launch's result array as the dense layer of the arrays it is entered with.

  A launch's body, at an entry of its block, is the dense layer at the corresponding entry of the whole array
  (the two matrix products are the same sums over the 64 columns; the bias and slope rows are read at the same
  column), and the ten row blocks cover the array: so the array the launch leaves is `dense` of the aggregated array,
  the node array, the two matrices and the two rows it found at its entry.
-/
import proofs.«121877_j6365141532718_1_alg».proof.Proof.KerRegion0
import proofs.«121877_j6365141532718_1_alg».proof.Proof.KerRegion1
import proofs.«121877_j6365141532718_1_alg».proof.Proof.KerRegion2
import proofs.«121877_j6365141532718_1_alg».proof.Proof.KerRegion3
import proofs.«121877_j6365141532718_1_alg».proof.Proof.KerHost
import proofs.«121877_j6365141532718_1_alg».proof.Proof.DenseBlock

set_option maxRecDepth 16384

noncomputable section

namespace Cert.Sage.Ker

open Cert.KernelIdeal Cert.KernelIdeal.Gen
open Idealize.ShloMosaic Idealize.ShloMosaic.TcCoe Idealize.SL.Sem Idealize.ShloMosaic.ValueIdx
open Cert.Sage

variable [Cert.ReferenceIdeal.Facts₀]

/-- Launch 0 leaves `dense` of what it found, whenever its two row buffers hold `[64]` rows made `[1, 64]`. -/
theorem region0_dense
    (V : (c : Dev nD) → (b : Ref sig .tc) → Buf (Elt Ideal) ((c : Thread nD τ).loc b)) (c : Dev nD)
    (b slope : Row) (hb : V c main_v33 = blockRow b) (ha : V c main_v34 = blockRow slope) :
    (dat0 V c).arrAt 6 cfg0.N = dense (V c main_v24) (V c main_arg0) (V c main_v26) (V c main_v28) b slope := by
  refine region0_cover V c _ (fun T hT x0 x1 x2 x3 x4 x5 h0 h1 h2 h3 h4 h5 j => ?_)
  obtain rfl : x2 = V c main_v26 := funext h2
  obtain rfl : x3 = V c main_v28 := funext h3
  refine pay0_eq_dense T hT (V c main_v24) (V c main_arg0) (V c main_v26) (V c main_v28) b slope x0 x1 x4 x5 h0 h1 (fun q => ?_) (fun q => ?_) j
  · rw [h4, hb]; exact castRow_apply b _ q
  · rw [h5, ha]; exact castRow_apply slope _ q

/-- Launch 1 leaves `dense` of what it found, whenever its two row buffers hold `[64]` rows made `[1, 64]`. -/
theorem region1_dense
    (V : (c : Dev nD) → (b : Ref sig .tc) → Buf (Elt Ideal) ((c : Thread nD τ).loc b)) (c : Dev nD)
    (b slope : Row) (hb : V c main_v57 = blockRow b) (ha : V c main_v58 = blockRow slope) :
    (dat1 V c).arrAt 6 cfg1.N = dense (V c main_v48) (V c main_v35) (V c main_v50) (V c main_v52) b slope := by
  refine region1_cover V c _ (fun T hT x0 x1 x2 x3 x4 x5 h0 h1 h2 h3 h4 h5 j => ?_)
  obtain rfl : x2 = V c main_v50 := funext h2
  obtain rfl : x3 = V c main_v52 := funext h3
  refine pay1_eq_dense T hT (V c main_v48) (V c main_v35) (V c main_v50) (V c main_v52) b slope x0 x1 x4 x5 h0 h1 (fun q => ?_) (fun q => ?_) j
  · rw [h4, hb]; exact castRow_apply b _ q
  · rw [h5, ha]; exact castRow_apply slope _ q

/-- Launch 2 leaves `dense` of what it found, whenever its two row buffers hold `[64]` rows made `[1, 64]`. -/
theorem region2_dense
    (V : (c : Dev nD) → (b : Ref sig .tc) → Buf (Elt Ideal) ((c : Thread nD τ).loc b)) (c : Dev nD)
    (b slope : Row) (hb : V c main_v81 = blockRow b) (ha : V c main_v82 = blockRow slope) :
    (dat2 V c).arrAt 6 cfg2.N = dense (V c main_v72) (V c main_v59) (V c main_v74) (V c main_v76) b slope := by
  refine region2_cover V c _ (fun T hT x0 x1 x2 x3 x4 x5 h0 h1 h2 h3 h4 h5 j => ?_)
  obtain rfl : x2 = V c main_v74 := funext h2
  obtain rfl : x3 = V c main_v76 := funext h3
  refine pay2_eq_dense T hT (V c main_v72) (V c main_v59) (V c main_v74) (V c main_v76) b slope x0 x1 x4 x5 h0 h1 (fun q => ?_) (fun q => ?_) j
  · rw [h4, hb]; exact castRow_apply b _ q
  · rw [h5, ha]; exact castRow_apply slope _ q

/-- Launch 3 leaves `dense` of what it found, whenever its two row buffers hold `[64]` rows made `[1, 64]`. -/
theorem region3_dense
    (V : (c : Dev nD) → (b : Ref sig .tc) → Buf (Elt Ideal) ((c : Thread nD τ).loc b)) (c : Dev nD)
    (b slope : Row) (hb : V c main_v105 = blockRow b) (ha : V c main_v106 = blockRow slope) :
    (dat3 V c).arrAt 6 cfg3.N = dense (V c main_v96) (V c main_v83) (V c main_v98) (V c main_v100) b slope := by
  refine region3_cover V c _ (fun T hT x0 x1 x2 x3 x4 x5 h0 h1 h2 h3 h4 h5 j => ?_)
  obtain rfl : x2 = V c main_v98 := funext h2
  obtain rfl : x3 = V c main_v100 := funext h3
  refine pay3_eq_dense T hT (V c main_v96) (V c main_v83) (V c main_v98) (V c main_v100) b slope x0 x1 x4 x5 h0 h1 (fun q => ?_) (fun q => ?_) j
  · rw [h4, hb]; exact castRow_apply b _ q
  · rw [h5, ha]; exact castRow_apply slope _ q

end Cert.Sage.Ker

end
-- ==== Proof.KerChain.lean ====
/-
  The boundary contents of the idealized kernel's run, layer by layer.

  `W0` is the launch memory; a host stretch takes `W(2k)` to `W(2k+1)`, launch `k` takes `W(2k+1)` to `W(2k+2)`.
  By induction along the chain: the edges' endpoints, the degree reciprocal and the stacked parameters are computed
  once and never written again; before launch `k` the six buffers it reads hold the mean aggregation of layer `k−1`'s
  result, that result, and layer `k`'s matrices and rows; so launch `k` leaves layer `k`'s result. The last link,
  read at the result buffer, is the four-layer network of the six arguments.
-/
import proofs.«121877_j6365141532718_1_alg».proof.Proof.KerRun
import proofs.«121877_j6365141532718_1_alg».proof.Proof.KerDense

set_option maxRecDepth 16384

noncomputable section

namespace Cert.Sage.Ker

open Cert.KernelIdeal Cert.KernelIdeal.Gen
open Idealize.ShloMosaic Idealize.ShloMosaic.TcCoe Idealize.SL.Sem Idealize.ShloMosaic.StableHlo
open Cert.Sage

variable [Cert.ReferenceIdeal.Facts₀]

variable (m : (ℓ : Loc nD τ sig) → Buf (Elt Ideal) ℓ) (ρ : Dev nD → PrngReg) (c : Dev nD)

/-- Layer 0's input: the node array as launched. -/
abbrev x0 : Nodes := (m ((c : Thread nD τ).loc main_arg0))
/-- Layer `k`'s result, `k = 0 … 3`. -/
abbrev x1 : Nodes := layer (m ((c : Thread nD τ).loc main_arg1)) (mat0 (m ((c : Thread nD τ).loc main_arg2))) (mat0 (m ((c : Thread nD τ).loc main_arg3))) (row0 (m ((c : Thread nD τ).loc main_arg4))) (row0 (m ((c : Thread nD τ).loc main_arg5))) (x0 m c)
abbrev x2 : Nodes := layer (m ((c : Thread nD τ).loc main_arg1)) (mat1 (m ((c : Thread nD τ).loc main_arg2))) (mat1 (m ((c : Thread nD τ).loc main_arg3))) (row1 (m ((c : Thread nD τ).loc main_arg4))) (row1 (m ((c : Thread nD τ).loc main_arg5))) (x1 m c)
abbrev x3 : Nodes := layer (m ((c : Thread nD τ).loc main_arg1)) (mat2 (m ((c : Thread nD τ).loc main_arg2))) (mat2 (m ((c : Thread nD τ).loc main_arg3))) (row2 (m ((c : Thread nD τ).loc main_arg4))) (row2 (m ((c : Thread nD τ).loc main_arg5))) (x2 m c)
abbrev x4 : Nodes := layer (m ((c : Thread nD τ).loc main_arg1)) (mat3 (m ((c : Thread nD τ).loc main_arg2))) (mat3 (m ((c : Thread nD τ).loc main_arg3))) (row3 (m ((c : Thread nD τ).loc main_arg4))) (row3 (m ((c : Thread nD τ).loc main_arg5))) (x3 m c)

/-- After the first stretch: what every layer reuses, as functions of the launch memory. -/
theorem car1 : Carried (W1 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  carried0 (W0 m ρ c)

/-- Launch 0 writes only its result array: what every layer reuses is kept. -/
theorem car2 : Carried (W2 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  ⟨(W2_of_ne m ρ c main_v1 (by decide)).trans (car1 m ρ c).v1,
   (W2_of_ne m ρ c main_v3 (by decide)).trans (car1 m ρ c).v3,
   (W2_of_ne m ρ c main_v11 (by decide)).trans (car1 m ρ c).v11,
   (W2_of_ne m ρ c main_arg2 (by decide)).trans (car1 m ρ c).a2,
   (W2_of_ne m ρ c main_arg3 (by decide)).trans (car1 m ρ c).a3,
   (W2_of_ne m ρ c main_arg4 (by decide)).trans (car1 m ρ c).a4,
   (W2_of_ne m ρ c main_arg5 (by decide)).trans (car1 m ρ c).a5⟩

/-- Launch 0 leaves layer 0's result in its result array. -/
theorem out0 : W2 m ρ c (Proc.devRef .tc main_v35) = x1 m c := by
  have hagg : V1 m ρ c main_v24 = agg (m ((c : Thread nD τ).loc main_arg1)) (x0 m c) := s0_agg (W0 m ρ c)
  have hx : V1 m ρ c main_arg0 = x0 m c := s0_x (W0 m ρ c)
  have hwl : V1 m ρ c main_v26 = mat0 (m ((c : Thread nD τ).loc main_arg2)) := s0_wl (W0 m ρ c)
  have hwr : V1 m ρ c main_v28 = mat0 (m ((c : Thread nD τ).loc main_arg3)) := s0_wr (W0 m ρ c)
  have hb : V1 m ρ c main_v33 = blockRow (row0 (m ((c : Thread nD τ).loc main_arg4))) := s0_b (W0 m ρ c)
  have ha : V1 m ρ c main_v34 = blockRow (row0 (m ((c : Thread nD τ).loc main_arg5))) := s0_a (W0 m ρ c)
  have hreg := region0_dense (V1 m ρ) c _ _ hb ha
  rw [hagg, hx, hwl, hwr] at hreg
  exact (W2_arr m ρ c 6).trans hreg

/-- Stretch 1 keeps what every layer reuses. -/
theorem car3 : Carried (W3 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  carried1 (W2 m ρ c) _ _ _ _ _ (car2 m ρ c)

/-- Launch 1 writes only its result array: what every layer reuses is kept. -/
theorem car4 : Carried (W4 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  ⟨(W4_of_ne m ρ c main_v1 (by decide)).trans (car3 m ρ c).v1,
   (W4_of_ne m ρ c main_v3 (by decide)).trans (car3 m ρ c).v3,
   (W4_of_ne m ρ c main_v11 (by decide)).trans (car3 m ρ c).v11,
   (W4_of_ne m ρ c main_arg2 (by decide)).trans (car3 m ρ c).a2,
   (W4_of_ne m ρ c main_arg3 (by decide)).trans (car3 m ρ c).a3,
   (W4_of_ne m ρ c main_arg4 (by decide)).trans (car3 m ρ c).a4,
   (W4_of_ne m ρ c main_arg5 (by decide)).trans (car3 m ρ c).a5⟩

/-- Launch 1 leaves layer 1's result in its result array. -/
theorem out1 : W4 m ρ c (Proc.devRef .tc main_v59) = x2 m c := by
  have hagg : V3 m ρ c main_v48 = agg (m ((c : Thread nD τ).loc main_arg1)) (x1 m c) := s1_agg (W2 m ρ c) _ _ (car2 m ρ c).v1 (car2 m ρ c).v3 (car2 m ρ c).v11 (out0 m ρ c)
  have hx : V3 m ρ c main_v35 = x1 m c := (s1_x (W2 m ρ c)).trans (out0 m ρ c)
  have hwl : V3 m ρ c main_v50 = mat1 (m ((c : Thread nD τ).loc main_arg2)) := (s1_wl (W2 m ρ c)).trans (congrArg mat1 (car2 m ρ c).a2)
  have hwr : V3 m ρ c main_v52 = mat1 (m ((c : Thread nD τ).loc main_arg3)) := (s1_wr (W2 m ρ c)).trans (congrArg mat1 (car2 m ρ c).a3)
  have hb : V3 m ρ c main_v57 = blockRow (row1 (m ((c : Thread nD τ).loc main_arg4))) := (s1_b (W2 m ρ c)).trans (congrArg (fun z => blockRow (row1 z)) (car2 m ρ c).a4)
  have ha : V3 m ρ c main_v58 = blockRow (row1 (m ((c : Thread nD τ).loc main_arg5))) := (s1_a (W2 m ρ c)).trans (congrArg (fun z => blockRow (row1 z)) (car2 m ρ c).a5)
  have hreg := region1_dense (V3 m ρ) c _ _ hb ha
  rw [hagg, hx, hwl, hwr] at hreg
  exact (W4_arr m ρ c 6).trans hreg

/-- Stretch 2 keeps what every layer reuses. -/
theorem car5 : Carried (W5 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  carried2 (W4 m ρ c) _ _ _ _ _ (car4 m ρ c)

/-- Launch 2 writes only its result array: what every layer reuses is kept. -/
theorem car6 : Carried (W6 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  ⟨(W6_of_ne m ρ c main_v1 (by decide)).trans (car5 m ρ c).v1,
   (W6_of_ne m ρ c main_v3 (by decide)).trans (car5 m ρ c).v3,
   (W6_of_ne m ρ c main_v11 (by decide)).trans (car5 m ρ c).v11,
   (W6_of_ne m ρ c main_arg2 (by decide)).trans (car5 m ρ c).a2,
   (W6_of_ne m ρ c main_arg3 (by decide)).trans (car5 m ρ c).a3,
   (W6_of_ne m ρ c main_arg4 (by decide)).trans (car5 m ρ c).a4,
   (W6_of_ne m ρ c main_arg5 (by decide)).trans (car5 m ρ c).a5⟩

/-- Launch 2 leaves layer 2's result in its result array. -/
theorem out2 : W6 m ρ c (Proc.devRef .tc main_v83) = x3 m c := by
  have hagg : V5 m ρ c main_v72 = agg (m ((c : Thread nD τ).loc main_arg1)) (x2 m c) := s2_agg (W4 m ρ c) _ _ (car4 m ρ c).v1 (car4 m ρ c).v3 (car4 m ρ c).v11 (out1 m ρ c)
  have hx : V5 m ρ c main_v59 = x2 m c := (s2_x (W4 m ρ c)).trans (out1 m ρ c)
  have hwl : V5 m ρ c main_v74 = mat2 (m ((c : Thread nD τ).loc main_arg2)) := (s2_wl (W4 m ρ c)).trans (congrArg mat2 (car4 m ρ c).a2)
  have hwr : V5 m ρ c main_v76 = mat2 (m ((c : Thread nD τ).loc main_arg3)) := (s2_wr (W4 m ρ c)).trans (congrArg mat2 (car4 m ρ c).a3)
  have hb : V5 m ρ c main_v81 = blockRow (row2 (m ((c : Thread nD τ).loc main_arg4))) := (s2_b (W4 m ρ c)).trans (congrArg (fun z => blockRow (row2 z)) (car4 m ρ c).a4)
  have ha : V5 m ρ c main_v82 = blockRow (row2 (m ((c : Thread nD τ).loc main_arg5))) := (s2_a (W4 m ρ c)).trans (congrArg (fun z => blockRow (row2 z)) (car4 m ρ c).a5)
  have hreg := region2_dense (V5 m ρ) c _ _ hb ha
  rw [hagg, hx, hwl, hwr] at hreg
  exact (W6_arr m ρ c 6).trans hreg

/-- Stretch 3 keeps what every layer reuses. -/
theorem car7 : Carried (W7 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  carried3 (W6 m ρ c) _ _ _ _ _ (car6 m ρ c)

/-- Launch 3 writes only its result array: what every layer reuses is kept. -/
theorem car8 : Carried (W8 m ρ c) (m ((c : Thread nD τ).loc main_arg1)) (m ((c : Thread nD τ).loc main_arg2)) (m ((c : Thread nD τ).loc main_arg3)) (m ((c : Thread nD τ).loc main_arg4)) (m ((c : Thread nD τ).loc main_arg5)) :=
  ⟨(W8_of_ne m ρ c main_v1 (by decide)).trans (car7 m ρ c).v1,
   (W8_of_ne m ρ c main_v3 (by decide)).trans (car7 m ρ c).v3,
   (W8_of_ne m ρ c main_v11 (by decide)).trans (car7 m ρ c).v11,
   (W8_of_ne m ρ c main_arg2 (by decide)).trans (car7 m ρ c).a2,
   (W8_of_ne m ρ c main_arg3 (by decide)).trans (car7 m ρ c).a3,
   (W8_of_ne m ρ c main_arg4 (by decide)).trans (car7 m ρ c).a4,
   (W8_of_ne m ρ c main_arg5 (by decide)).trans (car7 m ρ c).a5⟩

/-- Launch 3 leaves layer 3's result in its result array. -/
theorem out3 : W8 m ρ c (Proc.devRef .tc main_v107) = x4 m c := by
  have hagg : V7 m ρ c main_v96 = agg (m ((c : Thread nD τ).loc main_arg1)) (x3 m c) := s3_agg (W6 m ρ c) _ _ (car6 m ρ c).v1 (car6 m ρ c).v3 (car6 m ρ c).v11 (out2 m ρ c)
  have hx : V7 m ρ c main_v83 = x3 m c := (s3_x (W6 m ρ c)).trans (out2 m ρ c)
  have hwl : V7 m ρ c main_v98 = mat3 (m ((c : Thread nD τ).loc main_arg2)) := (s3_wl (W6 m ρ c)).trans (congrArg mat3 (car6 m ρ c).a2)
  have hwr : V7 m ρ c main_v100 = mat3 (m ((c : Thread nD τ).loc main_arg3)) := (s3_wr (W6 m ρ c)).trans (congrArg mat3 (car6 m ρ c).a3)
  have hb : V7 m ρ c main_v105 = blockRow (row3 (m ((c : Thread nD τ).loc main_arg4))) := (s3_b (W6 m ρ c)).trans (congrArg (fun z => blockRow (row3 z)) (car6 m ρ c).a4)
  have ha : V7 m ρ c main_v106 = blockRow (row3 (m ((c : Thread nD τ).loc main_arg5))) := (s3_a (W6 m ρ c)).trans (congrArg (fun z => blockRow (row3 z)) (car6 m ρ c).a5)
  have hreg := region3_dense (V7 m ρ) c _ _ hb ha
  rw [hagg, hx, hwl, hwr] at hreg
  exact (W8_arr m ρ c 6).trans hreg

/-- THE KERNEL'S RUN, READ: every weakly fair execution of the idealized kernel's @main terminates, nothing faulting,
    with the result array at the four-layer network of the six arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v107)
          = net (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (out3 m ρ c), (h c).2⟩) (run_last m ρ)

end Cert.Sage.Ker

end
-- ==== Proof.RefRun.lean ====
/-
  The reference program's run, read back as the network.

  The reference is a straight line of 164 host operations: a prologue that reads the edge list's two rows and the
  reciprocal of the clamped indegree, then four layers, each an aggregation and affine part followed by the
  per-column leaky rectifier. Every execution ends with each buffer at the fold of the operations' results over
  the launch contents; here that fold is read piece by piece, each piece from an ARBITRARY valuation of the
  buffers, so that the composed term of the whole line (which doubles per layer) is never written down: a layer
  only needs the previous layer's buffer, the six arguments and the three arrays of the prologue, and it leaves
  all of these but its own input as they were.
-/
import proofs.«121877_j6365141532718_1_alg».proof.Proof.RefOps
import proofs.«121877_j6365141532718_1_alg».proof.Proof.Layer

noncomputable section

namespace Cert.Sage.Ref

open Cert.ReferenceIdeal Cert.ReferenceIdeal.Gen Idealize.ShloMosaic Idealize.ShloMosaic.TcCoe Idealize.SL.Sem Idealize.ShloMosaic.StableHlo

section Pieces
variable {F : FTy → Type} [FloatOps F]

/-- The prologue, operations 1–16: the edge list's two rows, and the reciprocal of the indegree clamped below at one. -/
abbrev p0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)) ]

/-- The first layer's aggregation and affine part, operations 17–44. -/
abbrev a1 : List (HloOp τ sig (Elt F)) :=
  [ unary main_arg2 main_v12 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v12 main_v13 rfl shapeCasts_S1x64x64_S64x64,
    unary main_arg3 main_v14 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v14 main_v15 rfl shapeCasts_S1x64x64_S64x64,
    unary main_arg4 main_v16 ((extractStridedSlice S1x64 ![0, 0] · slices_S4x64_S1x64_0_0) : (⟨S4x64, .f32⟩ : BufTy).Contents (Elt F) → (⟨S1x64, .f32⟩ : BufTy).Contents (Elt F)),
    reshape main_v16 main_v17 rfl shapeCasts_S1x64_S64,
    nullary main_c (constantI S_ 32 0#32),
    unary main_c main_v18 (broadcastInDim S800000 ![] bcast_S_S800000 : (⟨S_, .i32⟩ : BufTy).Contents (Elt F) → (⟨S800000, .i32⟩ : BufTy).Contents (Elt F)),
    binary main_v1 main_v18 main_v19 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v20 (broadcastInDim S800000 ![] bcast_S_S800000 : (⟨S_, .i32⟩ : BufTy).Contents (Elt F) → (⟨S800000, .i32⟩ : BufTy).Contents (Elt F)),
    binary main_v1 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_arg0 main_v23 main_v24 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_4 (constant S_ .f32 0x00000000#32),
    unary main_cst_4 main_v25 (broadcastInDim S50000x64 ![] bcast_S_S50000x64 : (⟨S_, .f32⟩ : BufTy).Contents (Elt F) → (⟨S50000x64, .f32⟩ : BufTy).Contents (Elt F)),
    unary main_v3 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v11 main_v28 (broadcastInDim S50000x1 ![0] bcast_S50000_S50000x1_0 : (⟨S50000, .f32⟩ : BufTy).Contents (Elt F) → (⟨S50000x1, .f32⟩ : BufTy).Contents (Elt F)),
    unary main_v28 main_v29 (broadcastInDim S50000x64 ![0, 1] bcast_S50000x1_S50000x64_0_1 : (⟨S50000x1, .f32⟩ : BufTy).Contents (Elt F) → (⟨S50000x64, .f32⟩ : BufTy).Contents (Elt F)),
    binary main_v27 main_v29 main_v30 (mulf : (⟨S50000x64, .f32⟩ : BufTy).Contents (Elt F) → (⟨S50000x64, .f32⟩ : BufTy).Contents (Elt F) → (⟨S50000x64, .f32⟩ : BufTy).Contents (Elt F)),
    binary main_v30 main_v13 main_v31 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_arg0 main_v15 main_v32 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v31 main_v32 main_v33 (addf : (⟨S50000x64, .f32⟩ : BufTy).Contents (Elt F) → (⟨S50000x64, .f32⟩ : BufTy).Contents (Elt F) → (⟨S50000x64, .f32⟩ : BufTy).Contents (Elt F)),
    unary main_v17 main_v34 (broadcastInDim S1x64 ![1] bcast_S64_S1x64_1 : (⟨S64, .f32⟩ : BufTy).Contents (Elt F) → (⟨S1x64, .f32⟩ : BufTy).Contents (Elt F)),
    unary main_v34 main_v35 (broadcastInDim S50000x64 ![0, 1] bcast_S1x64_S50000x64_0_1 : (⟨S1x64, .f32⟩ : BufTy).Contents (Elt F) → (⟨S50000x64, .f32⟩ : BufTy).Contents (Elt F)),
    binary main_v33 main_v35 main_v36 (addf : (⟨S50000x64, .f32⟩ : BufTy).Contents (Elt F) → (⟨S50000x64, .f32⟩ : BufTy).Contents (Elt F) → (⟨S50000x64, .f32⟩ : BufTy).Contents (Elt F)) ]

/-- The first layer's rectifier, operations 45–53. -/
abbrev r1 : List (HloOp τ sig (Elt F)) :=
  [ unary main_arg5 main_v37 ((extractStridedSlice S1x64 ![0, 0] · slices_S4x64_S1x64_0_0) : (⟨S4x64, .f32⟩ : BufTy).Contents (Elt F) → (⟨S1x64, .f32⟩ : BufTy).Contents (Elt F)),
    reshape main_v37 main_v38 rfl shapeCasts_S1x64_S64,
    nullary main_cst_5 (constant S_ .f32 0x00000000#32),
    unary main_cst_5 main_v39 (broadcastInDim S50000x64 ![] bcast_S_S50000x64 : (⟨S_, .f32⟩ : BufTy).Contents (Elt F) → (⟨S50000x64, .f32⟩ : BufTy).Contents (Elt F)),
    binary main_v36 main_v39 main_v40 (cmpf .oge : (⟨S50000x64, .f32⟩ : BufTy).Contents (Elt F) → (⟨S50000x64, .f32⟩ : BufTy).Contents (Elt F) → (⟨S50000x64, .i1⟩ : BufTy).Contents (Elt F)),
    unary main_v38 main_v41 (broadcastInDim S1x64 ![1] bcast_S64_S1x64_1 : (⟨S64, .f32⟩ : BufTy).Contents (Elt F) → (⟨S1x64, .f32⟩ : BufTy).Contents (Elt F)),
    unary main_v41 main_v42 (broadcastInDim S50000x64 ![0, 1] bcast_S1x64_S50000x64_0_1 : (⟨S1x64, .f32⟩ : BufTy).Contents (Elt F) → (⟨S50000x64, .f32⟩ : BufTy).Contents (Elt F)),
    binary main_v42 main_v36 main_v43 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v40) (TRef.of (T := ⟨S50000x64, .f32⟩) main_v36) (TRef.of (T := ⟨S50000x64, .f32⟩) main_v43) (TRef.of (T := ⟨S50000x64, .f32⟩) main_v44) select ]

/-- The second layer's aggregation and affine part, operations 54–81. -/
abbrev a2 : List (HloOp τ sig (Elt F)) :=
  [ unary main_arg2 main_v45 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v45 main_v46 rfl shapeCasts_S1x64x64_S64x64,
    unary main_arg3 main_v47 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v47 main_v48 rfl shapeCasts_S1x64x64_S64x64,
    unary main_arg4 main_v49 ((extractStridedSlice S1x64 ![1, 0] · slices_S4x64_S1x64_1_0) : (⟨S4x64, .f32⟩ : BufTy).Contents (Elt F) → (⟨S1x64, .f32⟩ : BufTy).Contents (Elt F)),
    reshape main_v49 main_v50 rfl shapeCasts_S1x64_S64,
    nullary main_c_6 (constantI S_ 32 0#32),
    unary main_c_6 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v44 main_v56 main_v57 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v58 (broadcastInDim S50000x64 ![] bcast_S_S50000x64 : (⟨S_, .f32⟩ : BufTy).Contents (Elt F) → (⟨S50000x64, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_v57 main_v60 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v11 main_v61 (broadcastInDim S50000x1 ![0] bcast_S50000_S50000x1_0 : (⟨S50000, .f32⟩ : BufTy).Contents (Elt F) → (⟨S50000x1, .f32⟩ : BufTy).Contents (Elt F)),
    unary main_v61 main_v62 (broadcastInDim S50000x64 ![0, 1] bcast_S50000x1_S50000x64_0_1 : (⟨S50000x1, .f32⟩ : BufTy).Contents (Elt F) → (⟨S50000x64, .f32⟩ : BufTy).Contents (Elt F)),
    binary main_v60 main_v62 main_v63 (mulf : (⟨S50000x64, .f32⟩ : BufTy).Contents (Elt F) → (⟨S50000x64, .f32⟩ : BufTy).Contents (Elt F) → (⟨S50000x64, .f32⟩ : BufTy).Contents (Elt F)),
    binary main_v63 main_v46 main_v64 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v44 main_v48 main_v65 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v64 main_v65 main_v66 (addf : (⟨S50000x64, .f32⟩ : BufTy).Contents (Elt F) → (⟨S50000x64, .f32⟩ : BufTy).Contents (Elt F) → (⟨S50000x64, .f32⟩ : BufTy).Contents (Elt F)),
    unary main_v50 main_v67 (broadcastInDim S1x64 ![1] bcast_S64_S1x64_1 : (⟨S64, .f32⟩ : BufTy).Contents (Elt F) → (⟨S1x64, .f32⟩ : BufTy).Contents (Elt F)),
    unary main_v67 main_v68 (broadcastInDim S50000x64 ![0, 1] bcast_S1x64_S50000x64_0_1 : (⟨S1x64, .f32⟩ : BufTy).Contents (Elt F) → (⟨S50000x64, .f32⟩ : BufTy).Contents (Elt F)),
    binary main_v66 main_v68 main_v69 (addf : (⟨S50000x64, .f32⟩ : BufTy).Contents (Elt F) → (⟨S50000x64, .f32⟩ : BufTy).Contents (Elt F) → (⟨S50000x64, .f32⟩ : BufTy).Contents (Elt F)) ]

/-- The second layer's rectifier, operations 82–90. -/
abbrev r2 : List (HloOp τ sig (Elt F)) :=
  [ unary main_arg5 main_v70 ((extractStridedSlice S1x64 ![1, 0] · slices_S4x64_S1x64_1_0) : (⟨S4x64, .f32⟩ : BufTy).Contents (Elt F) → (⟨S1x64, .f32⟩ : BufTy).Contents (Elt F)),
    reshape main_v70 main_v71 rfl shapeCasts_S1x64_S64,
    nullary main_cst_9 (constant S_ .f32 0x00000000#32),
    unary main_cst_9 main_v72 (broadcastInDim S50000x64 ![] bcast_S_S50000x64 : (⟨S_, .f32⟩ : BufTy).Contents (Elt F) → (⟨S50000x64, .f32⟩ : BufTy).Contents (Elt F)),
    binary main_v69 main_v72 main_v73 (cmpf .oge : (⟨S50000x64, .f32⟩ : BufTy).Contents (Elt F) → (⟨S50000x64, .f32⟩ : BufTy).Contents (Elt F) → (⟨S50000x64, .i1⟩ : BufTy).Contents (Elt F)),
    unary main_v71 main_v74 (broadcastInDim S1x64 ![1] bcast_S64_S1x64_1 : (⟨S64, .f32⟩ : BufTy).Contents (Elt F) → (⟨S1x64, .f32⟩ : BufTy).Contents (Elt F)),
    unary main_v74 main_v75 (broadcastInDim S50000x64 ![0, 1] bcast_S1x64_S50000x64_0_1 : (⟨S1x64, .f32⟩ : BufTy).Contents (Elt F) → (⟨S50000x64, .f32⟩ : BufTy).Contents (Elt F)),
    binary main_v75 main_v69 main_v76 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v73) (TRef.of (T := ⟨S50000x64, .f32⟩) main_v69) (TRef.of (T := ⟨S50000x64, .f32⟩) main_v76) (TRef.of (T := ⟨S50000x64, .f32⟩) main_v77) select ]

/-- The third layer's aggregation and affine part, operations 91–118. -/
abbrev a3 : List (HloOp τ sig (Elt F)) :=
  [ unary main_arg2 main_v78 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v78 main_v79 rfl shapeCasts_S1x64x64_S64x64,
    unary main_arg3 main_v80 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v80 main_v81 rfl shapeCasts_S1x64x64_S64x64,
    unary main_arg4 main_v82 ((extractStridedSlice S1x64 ![2, 0] · slices_S4x64_S1x64_2_0) : (⟨S4x64, .f32⟩ : BufTy).Contents (Elt F) → (⟨S1x64, .f32⟩ : BufTy).Contents (Elt F)),
    reshape main_v82 main_v83 rfl shapeCasts_S1x64_S64,
    nullary main_c_10 (constantI S_ 32 0#32),
    unary main_c_10 main_v84 (broadcastInDim S800000 ![] bcast_S_S800000 : (⟨S_, .i32⟩ : BufTy).Contents (Elt F) → (⟨S800000, .i32⟩ : BufTy).Contents (Elt F)),
    binary main_v1 main_v84 main_v85 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v86 (broadcastInDim S800000 ![] bcast_S_S800000 : (⟨S_, .i32⟩ : BufTy).Contents (Elt F) → (⟨S800000, .i32⟩ : BufTy).Contents (Elt F)),
    binary main_v1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v77 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_12 (constant S_ .f32 0x00000000#32),
    unary main_cst_12 main_v91 (broadcastInDim S50000x64 ![] bcast_S_S50000x64 : (⟨S_, .f32⟩ : BufTy).Contents (Elt F) → (⟨S50000x64, .f32⟩ : BufTy).Contents (Elt F)),
    unary main_v3 main_v92 (broadcastInDim S800000x1 ![0] bcast_S800000_S800000x1_0 : (⟨S800000, .i32⟩ : BufTy).Contents (Elt F) → (⟨S800000x1, .i32⟩ : BufTy).Contents (Elt F)),
    ternary main_v91 main_v92 main_v90 main_v93 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v11 main_v94 (broadcastInDim S50000x1 ![0] bcast_S50000_S50000x1_0 : (⟨S50000, .f32⟩ : BufTy).Contents (Elt F) → (⟨S50000x1, .f32⟩ : BufTy).Contents (Elt F)),
    unary main_v94 main_v95 (broadcastInDim S50000x64 ![0, 1] bcast_S50000x1_S50000x64_0_1 : (⟨S50000x1, .f32⟩ : BufTy).Contents (Elt F) → (⟨S50000x64, .f32⟩ : BufTy).Contents (Elt F)),
    binary main_v93 main_v95 main_v96 (mulf : (⟨S50000x64, .f32⟩ : BufTy).Contents (Elt F) → (⟨S50000x64, .f32⟩ : BufTy).Contents (Elt F) → (⟨S50000x64, .f32⟩ : BufTy).Contents (Elt F)),
    binary main_v96 main_v79 main_v97 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v77 main_v81 main_v98 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v97 main_v98 main_v99 (addf : (⟨S50000x64, .f32⟩ : BufTy).Contents (Elt F) → (⟨S50000x64, .f32⟩ : BufTy).Contents (Elt F) → (⟨S50000x64, .f32⟩ : BufTy).Contents (Elt F)),
    unary main_v83 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)) ]

/-- The third layer's rectifier, operations 119–127. -/
abbrev r3 : List (HloOp τ sig (Elt F)) :=
  [ unary main_arg5 main_v103 ((extractStridedSlice S1x64 ![2, 0] · slices_S4x64_S1x64_2_0) : (⟨S4x64, .f32⟩ : BufTy).Contents (Elt F) → (⟨S1x64, .f32⟩ : BufTy).Contents (Elt F)),
    reshape main_v103 main_v104 rfl shapeCasts_S1x64_S64,
    nullary main_cst_13 (constant S_ .f32 0x00000000#32),
    unary main_cst_13 main_v105 (broadcastInDim S50000x64 ![] bcast_S_S50000x64 : (⟨S_, .f32⟩ : BufTy).Contents (Elt F) → (⟨S50000x64, .f32⟩ : BufTy).Contents (Elt F)),
    binary main_v102 main_v105 main_v106 (cmpf .oge : (⟨S50000x64, .f32⟩ : BufTy).Contents (Elt F) → (⟨S50000x64, .f32⟩ : BufTy).Contents (Elt F) → (⟨S50000x64, .i1⟩ : BufTy).Contents (Elt F)),
    unary main_v104 main_v107 (broadcastInDim S1x64 ![1] bcast_S64_S1x64_1 : (⟨S64, .f32⟩ : BufTy).Contents (Elt F) → (⟨S1x64, .f32⟩ : BufTy).Contents (Elt F)),
    unary main_v107 main_v108 (broadcastInDim S50000x64 ![0, 1] bcast_S1x64_S50000x64_0_1 : (⟨S1x64, .f32⟩ : BufTy).Contents (Elt F) → (⟨S50000x64, .f32⟩ : BufTy).Contents (Elt F)),
    binary main_v108 main_v102 main_v109 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v106) (TRef.of (T := ⟨S50000x64, .f32⟩) main_v102) (TRef.of (T := ⟨S50000x64, .f32⟩) main_v109) (TRef.of (T := ⟨S50000x64, .f32⟩) main_v110) select ]

/-- The fourth layer's aggregation and affine part, operations 128–155. -/
abbrev a4 : List (HloOp τ sig (Elt F)) :=
  [ unary main_arg2 main_v111 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v111 main_v112 rfl shapeCasts_S1x64x64_S64x64,
    unary main_arg3 main_v113 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v113 main_v114 rfl shapeCasts_S1x64x64_S64x64,
    unary main_arg4 main_v115 ((extractStridedSlice S1x64 ![3, 0] · slices_S4x64_S1x64_3_0) : (⟨S4x64, .f32⟩ : BufTy).Contents (Elt F) → (⟨S1x64, .f32⟩ : BufTy).Contents (Elt F)),
    reshape main_v115 main_v116 rfl shapeCasts_S1x64_S64,
    nullary main_c_14 (constantI S_ 32 0#32),
    unary main_c_14 main_v117 (broadcastInDim S800000 ![] bcast_S_S800000 : (⟨S_, .i32⟩ : BufTy).Contents (Elt F) → (⟨S800000, .i32⟩ : BufTy).Contents (Elt F)),
    binary main_v1 main_v117 main_v118 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v119 (broadcastInDim S800000 ![] bcast_S_S800000 : (⟨S_, .i32⟩ : BufTy).Contents (Elt F) → (⟨S800000, .i32⟩ : BufTy).Contents (Elt F)),
    binary main_v1 main_v119 main_v120 (addi : (⟨S800000, .i32⟩ : BufTy).Contents (Elt F) → (⟨S800000, .i32⟩ : BufTy).Contents (Elt F) → (⟨S800000, .i32⟩ : BufTy).Contents (Elt F)),
    ternary main_v118 main_v120 main_v1 main_v121 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v121 main_v122 (broadcastInDim S800000x1 ![0] bcast_S800000_S800000x1_0 : (⟨S800000, .i32⟩ : BufTy).Contents (Elt F) → (⟨S800000x1, .i32⟩ : BufTy).Contents (Elt F)),
    binary main_v110 main_v122 main_v123 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_16 (constant S_ .f32 0x00000000#32),
    unary main_cst_16 main_v124 (broadcastInDim S50000x64 ![] bcast_S_S50000x64 : (⟨S_, .f32⟩ : BufTy).Contents (Elt F) → (⟨S50000x64, .f32⟩ : BufTy).Contents (Elt F)),
    unary main_v3 main_v125 (broadcastInDim S800000x1 ![0] bcast_S800000_S800000x1_0 : (⟨S800000, .i32⟩ : BufTy).Contents (Elt F) → (⟨S800000x1, .i32⟩ : BufTy).Contents (Elt F)),
    ternary main_v124 main_v125 main_v123 main_v126 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v11 main_v127 (broadcastInDim S50000x1 ![0] bcast_S50000_S50000x1_0 : (⟨S50000, .f32⟩ : BufTy).Contents (Elt F) → (⟨S50000x1, .f32⟩ : BufTy).Contents (Elt F)),
    unary main_v127 main_v128 (broadcastInDim S50000x64 ![0, 1] bcast_S50000x1_S50000x64_0_1 : (⟨S50000x1, .f32⟩ : BufTy).Contents (Elt F) → (⟨S50000x64, .f32⟩ : BufTy).Contents (Elt F)),
    binary main_v126 main_v128 main_v129 (mulf : (⟨S50000x64, .f32⟩ : BufTy).Contents (Elt F) → (⟨S50000x64, .f32⟩ : BufTy).Contents (Elt F) → (⟨S50000x64, .f32⟩ : BufTy).Contents (Elt F)),
    binary main_v129 main_v112 main_v130 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v110 main_v114 main_v131 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v130 main_v131 main_v132 (addf : (⟨S50000x64, .f32⟩ : BufTy).Contents (Elt F) → (⟨S50000x64, .f32⟩ : BufTy).Contents (Elt F) → (⟨S50000x64, .f32⟩ : BufTy).Contents (Elt F)),
    unary main_v116 main_v133 (broadcastInDim S1x64 ![1] bcast_S64_S1x64_1 : (⟨S64, .f32⟩ : BufTy).Contents (Elt F) → (⟨S1x64, .f32⟩ : BufTy).Contents (Elt F)),
    unary main_v133 main_v134 (broadcastInDim S50000x64 ![0, 1] bcast_S1x64_S50000x64_0_1 : (⟨S1x64, .f32⟩ : BufTy).Contents (Elt F) → (⟨S50000x64, .f32⟩ : BufTy).Contents (Elt F)),
    binary main_v132 main_v134 main_v135 (addf : (⟨S50000x64, .f32⟩ : BufTy).Contents (Elt F) → (⟨S50000x64, .f32⟩ : BufTy).Contents (Elt F) → (⟨S50000x64, .f32⟩ : BufTy).Contents (Elt F)) ]

/-- The fourth layer's rectifier, operations 156–164. -/
abbrev r4 : List (HloOp τ sig (Elt F)) :=
  [ unary main_arg5 main_v136 ((extractStridedSlice S1x64 ![3, 0] · slices_S4x64_S1x64_3_0) : (⟨S4x64, .f32⟩ : BufTy).Contents (Elt F) → (⟨S1x64, .f32⟩ : BufTy).Contents (Elt F)),
    reshape main_v136 main_v137 rfl shapeCasts_S1x64_S64,
    nullary main_cst_17 (constant S_ .f32 0x00000000#32),
    unary main_cst_17 main_v138 (broadcastInDim S50000x64 ![] bcast_S_S50000x64 : (⟨S_, .f32⟩ : BufTy).Contents (Elt F) → (⟨S50000x64, .f32⟩ : BufTy).Contents (Elt F)),
    binary main_v135 main_v138 main_v139 (cmpf .oge : (⟨S50000x64, .f32⟩ : BufTy).Contents (Elt F) → (⟨S50000x64, .f32⟩ : BufTy).Contents (Elt F) → (⟨S50000x64, .i1⟩ : BufTy).Contents (Elt F)),
    unary main_v137 main_v140 (broadcastInDim S1x64 ![1] bcast_S64_S1x64_1 : (⟨S64, .f32⟩ : BufTy).Contents (Elt F) → (⟨S1x64, .f32⟩ : BufTy).Contents (Elt F)),
    unary main_v140 main_v141 (broadcastInDim S50000x64 ![0, 1] bcast_S1x64_S50000x64_0_1 : (⟨S1x64, .f32⟩ : BufTy).Contents (Elt F) → (⟨S50000x64, .f32⟩ : BufTy).Contents (Elt F)),
    binary main_v141 main_v135 main_v142 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v139) (TRef.of (T := ⟨S50000x64, .f32⟩) main_v135) (TRef.of (T := ⟨S50000x64, .f32⟩) main_v142) (TRef.of (T := ⟨S50000x64, .f32⟩) main_v143) select ]

/-- @main's operations are the prologue followed by the four layers, each an affine part and a rectifier. -/
theorem ops_split : (RunP.ops (F := F)) = p0 ++ (a1 ++ (r1 ++ (a2 ++ (r2 ++ (a3 ++ (r3 ++ (a4 ++ r4))))))) := rfl

end Pieces

/-- The fold over two lines one after the other is the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Mean aggregation with the edge data given as the three arrays the program computes once and keeps: the sources `s`,
    the destinations `d`, and the reciprocal `g` of the clamped indegree. -/
def aggOf (s d : EdgeIx) (g : PerNode) (x : Nodes) : Nodes :=
  mulf
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 d)
      (Host.gather gather_S50000x64_S800000x1_S800000x64_1_0_n_n_0_1_164 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x64 ![0, 1] bcast_S50000x1_S50000x64_0_1
      (broadcastInDim S50000x1 ![0] bcast_S50000_S50000x1_0 g))

/-- At the edge list's own three arrays this is the mean aggregation. -/
theorem aggOf_eq (e : Edges) (x : Nodes) : aggOf (src e) (dst e) (degInv e) x = agg e x := rfl

/-- What holds of the buffers from the prologue on: the six arguments are as launched, and the three arrays read off
    the edge list are its sources, its destinations and the reciprocal of its clamped indegree. -/
structure Kept (x : Nodes) (e : Edges) (Wl Wr : Mats) (B A : Rows) (W : Valuation τ sig (Elt Ideal)) : Prop where
  a0 : (W (Proc.devRef .tc main_arg0)) = x
  a1 : (W (Proc.devRef .tc main_arg1)) = e
  a2 : (W (Proc.devRef .tc main_arg2)) = Wl
  a3 : (W (Proc.devRef .tc main_arg3)) = Wr
  a4 : (W (Proc.devRef .tc main_arg4)) = B
  a5 : (W (Proc.devRef .tc main_arg5)) = A
  s : (W (Proc.devRef .tc main_v1)) = src e
  d : (W (Proc.devRef .tc main_v3)) = dst e
  g : (W (Proc.devRef .tc main_v11)) = degInv e

/-- The prologue writes the three arrays and leaves the arguments. -/
theorem kept_p0 (V : Valuation τ sig (Elt Ideal)) :
    Kept (V (Proc.devRef .tc main_arg0)) (V (Proc.devRef .tc main_arg1)) (V (Proc.devRef .tc main_arg2)) (V (Proc.devRef .tc main_arg3)) (V (Proc.devRef .tc main_arg4)) (V (Proc.devRef .tc main_arg5))
      (after (p0 (F := Ideal)) V) := by
  constructor <;> (after_results_simp <;> rfl)

section Layers
variable {x : Nodes} {e : Edges} {Wl Wr : Mats} {B A : Rows} {W : Valuation τ sig (Elt Ideal)}

/-- The first layer's affine part writes none of the nine kept buffers. -/
theorem kept_a1 (h : Kept x e Wl Wr B A W) : Kept x e Wl Wr B A (after (a1 (F := Ideal)) W) := by
  obtain ⟨h0, h1, h2, h3, h4, h5, hs, hd, hg⟩ := h
  constructor <;> (after_results_simp <;> assumption)

/-- The first layer's rectifier writes none of the nine kept buffers. -/
theorem kept_r1 (h : Kept x e Wl Wr B A W) : Kept x e Wl Wr B A (after (r1 (F := Ideal)) W) := by
  obtain ⟨h0, h1, h2, h3, h4, h5, hs, hd, hg⟩ := h
  constructor <;> (after_results_simp <;> assumption)

/-- The first layer's affine part, read off the fold: the aggregated neighbours times the layer's first matrix, plus the
    nodes' own rows times its second, plus its bias row. -/
theorem res_a1 {s d : EdgeIx} {g : PerNode} {y : Nodes}
    (hs : (W (Proc.devRef .tc main_v1)) = s) (hd : (W (Proc.devRef .tc main_v3)) = d) (hg : (W (Proc.devRef .tc main_v11)) = g)
    (hy : (W (Proc.devRef .tc main_arg0)) = y) (h2 : (W (Proc.devRef .tc main_arg2)) = Wl) (h3 : (W (Proc.devRef .tc main_arg3)) = Wr) (h4 : (W (Proc.devRef .tc main_arg4)) = B) :
    after (a1 (F := Ideal)) W (Proc.devRef .tc main_v36) = affine (aggOf s d g y) y (mat0 Wl) (mat0 Wr) (row0 B) := by
  subst hs hd hg hy h2 h3 h4
  after_results_simp <;> rfl

/-- The first layer's rectifier, read off the fold. -/
theorem res_r1 {t : Nodes} (ht : (W (Proc.devRef .tc main_v36)) = t) (h5 : (W (Proc.devRef .tc main_arg5)) = A) :
    after (r1 (F := Ideal)) W (Proc.devRef .tc main_v44) = prelu t (row0 A) := by
  subst ht h5
  after_results_simp <;> rfl

/-- The first layer: from nodes `y` in its input buffer it leaves `layer` of them in its result buffer, and keeps
    what is kept. -/
theorem lay1 (h : Kept x e Wl Wr B A W) {y : Nodes} (hy : (W (Proc.devRef .tc main_arg0)) = y) :
    after (r1 (F := Ideal)) (after (a1 (F := Ideal)) W) (Proc.devRef .tc main_v44)
        = layer e (mat0 Wl) (mat0 Wr) (row0 B) (row0 A) y
      ∧ Kept x e Wl Wr B A (after (r1 (F := Ideal)) (after (a1 (F := Ideal)) W)) :=
by
  have ia := kept_a1 h
  have ha := res_a1 h.s h.d h.g hy h.a2 h.a3 h.a4
  have hr := res_r1 ha ia.a5
  have ir := kept_r1 ia
  refine ⟨?_, ir⟩
  rw [hr]
  rfl

/-- The second layer's affine part writes none of the nine kept buffers. -/
theorem kept_a2 (h : Kept x e Wl Wr B A W) : Kept x e Wl Wr B A (after (a2 (F := Ideal)) W) := by
  obtain ⟨h0, h1, h2, h3, h4, h5, hs, hd, hg⟩ := h
  constructor <;> (after_results_simp <;> assumption)

/-- The second layer's rectifier writes none of the nine kept buffers. -/
theorem kept_r2 (h : Kept x e Wl Wr B A W) : Kept x e Wl Wr B A (after (r2 (F := Ideal)) W) := by
  obtain ⟨h0, h1, h2, h3, h4, h5, hs, hd, hg⟩ := h
  constructor <;> (after_results_simp <;> assumption)

/-- The second layer's affine part, read off the fold: the aggregated neighbours times the layer's first matrix, plus the
    nodes' own rows times its second, plus its bias row. -/
theorem res_a2 {s d : EdgeIx} {g : PerNode} {y : Nodes}
    (hs : (W (Proc.devRef .tc main_v1)) = s) (hd : (W (Proc.devRef .tc main_v3)) = d) (hg : (W (Proc.devRef .tc main_v11)) = g)
    (hy : (W (Proc.devRef .tc main_v44)) = y) (h2 : (W (Proc.devRef .tc main_arg2)) = Wl) (h3 : (W (Proc.devRef .tc main_arg3)) = Wr) (h4 : (W (Proc.devRef .tc main_arg4)) = B) :
    after (a2 (F := Ideal)) W (Proc.devRef .tc main_v69) = affine (aggOf s d g y) y (mat1 Wl) (mat1 Wr) (row1 B) := by
  subst hs hd hg hy h2 h3 h4
  after_results_simp <;> rfl

/-- The second layer's rectifier, read off the fold. -/
theorem res_r2 {t : Nodes} (ht : (W (Proc.devRef .tc main_v69)) = t) (h5 : (W (Proc.devRef .tc main_arg5)) = A) :
    after (r2 (F := Ideal)) W (Proc.devRef .tc main_v77) = prelu t (row1 A) := by
  subst ht h5
  after_results_simp <;> rfl

/-- The second layer: from nodes `y` in its input buffer it leaves `layer` of them in its result buffer, and keeps
    what is kept. -/
theorem lay2 (h : Kept x e Wl Wr B A W) {y : Nodes} (hy : (W (Proc.devRef .tc main_v44)) = y) :
    after (r2 (F := Ideal)) (after (a2 (F := Ideal)) W) (Proc.devRef .tc main_v77)
        = layer e (mat1 Wl) (mat1 Wr) (row1 B) (row1 A) y
      ∧ Kept x e Wl Wr B A (after (r2 (F := Ideal)) (after (a2 (F := Ideal)) W)) :=
by
  have ia := kept_a2 h
  have ha := res_a2 h.s h.d h.g hy h.a2 h.a3 h.a4
  have hr := res_r2 ha ia.a5
  have ir := kept_r2 ia
  refine ⟨?_, ir⟩
  rw [hr]
  rfl

/-- The third layer's affine part writes none of the nine kept buffers. -/
theorem kept_a3 (h : Kept x e Wl Wr B A W) : Kept x e Wl Wr B A (after (a3 (F := Ideal)) W) := by
  obtain ⟨h0, h1, h2, h3, h4, h5, hs, hd, hg⟩ := h
  constructor <;> (after_results_simp <;> assumption)

/-- The third layer's rectifier writes none of the nine kept buffers. -/
theorem kept_r3 (h : Kept x e Wl Wr B A W) : Kept x e Wl Wr B A (after (r3 (F := Ideal)) W) := by
  obtain ⟨h0, h1, h2, h3, h4, h5, hs, hd, hg⟩ := h
  constructor <;> (after_results_simp <;> assumption)

/-- The third layer's affine part, read off the fold: the aggregated neighbours times the layer's first matrix, plus the
    nodes' own rows times its second, plus its bias row. -/
theorem res_a3 {s d : EdgeIx} {g : PerNode} {y : Nodes}
    (hs : (W (Proc.devRef .tc main_v1)) = s) (hd : (W (Proc.devRef .tc main_v3)) = d) (hg : (W (Proc.devRef .tc main_v11)) = g)
    (hy : (W (Proc.devRef .tc main_v77)) = y) (h2 : (W (Proc.devRef .tc main_arg2)) = Wl) (h3 : (W (Proc.devRef .tc main_arg3)) = Wr) (h4 : (W (Proc.devRef .tc main_arg4)) = B) :
    after (a3 (F := Ideal)) W (Proc.devRef .tc main_v102) = affine (aggOf s d g y) y (mat2 Wl) (mat2 Wr) (row2 B) := by
  subst hs hd hg hy h2 h3 h4
  after_results_simp <;> rfl

/-- The third layer's rectifier, read off the fold. -/
theorem res_r3 {t : Nodes} (ht : (W (Proc.devRef .tc main_v102)) = t) (h5 : (W (Proc.devRef .tc main_arg5)) = A) :
    after (r3 (F := Ideal)) W (Proc.devRef .tc main_v110) = prelu t (row2 A) := by
  subst ht h5
  after_results_simp <;> rfl

/-- The third layer: from nodes `y` in its input buffer it leaves `layer` of them in its result buffer, and keeps
    what is kept. -/
theorem lay3 (h : Kept x e Wl Wr B A W) {y : Nodes} (hy : (W (Proc.devRef .tc main_v77)) = y) :
    after (r3 (F := Ideal)) (after (a3 (F := Ideal)) W) (Proc.devRef .tc main_v110)
        = layer e (mat2 Wl) (mat2 Wr) (row2 B) (row2 A) y
      ∧ Kept x e Wl Wr B A (after (r3 (F := Ideal)) (after (a3 (F := Ideal)) W)) :=
by
  have ia := kept_a3 h
  have ha := res_a3 h.s h.d h.g hy h.a2 h.a3 h.a4
  have hr := res_r3 ha ia.a5
  have ir := kept_r3 ia
  refine ⟨?_, ir⟩
  rw [hr]
  rfl

/-- The fourth layer's affine part writes none of the nine kept buffers. -/
theorem kept_a4 (h : Kept x e Wl Wr B A W) : Kept x e Wl Wr B A (after (a4 (F := Ideal)) W) := by
  obtain ⟨h0, h1, h2, h3, h4, h5, hs, hd, hg⟩ := h
  constructor <;> (after_results_simp <;> assumption)

/-- The fourth layer's rectifier writes none of the nine kept buffers. -/
theorem kept_r4 (h : Kept x e Wl Wr B A W) : Kept x e Wl Wr B A (after (r4 (F := Ideal)) W) := by
  obtain ⟨h0, h1, h2, h3, h4, h5, hs, hd, hg⟩ := h
  constructor <;> (after_results_simp <;> assumption)

/-- The fourth layer's affine part, read off the fold: the aggregated neighbours times the layer's first matrix, plus the
    nodes' own rows times its second, plus its bias row. -/
theorem res_a4 {s d : EdgeIx} {g : PerNode} {y : Nodes}
    (hs : (W (Proc.devRef .tc main_v1)) = s) (hd : (W (Proc.devRef .tc main_v3)) = d) (hg : (W (Proc.devRef .tc main_v11)) = g)
    (hy : (W (Proc.devRef .tc main_v110)) = y) (h2 : (W (Proc.devRef .tc main_arg2)) = Wl) (h3 : (W (Proc.devRef .tc main_arg3)) = Wr) (h4 : (W (Proc.devRef .tc main_arg4)) = B) :
    after (a4 (F := Ideal)) W (Proc.devRef .tc main_v135) = affine (aggOf s d g y) y (mat3 Wl) (mat3 Wr) (row3 B) := by
  subst hs hd hg hy h2 h3 h4
  after_results_simp <;> rfl

/-- The fourth layer's rectifier, read off the fold. -/
theorem res_r4 {t : Nodes} (ht : (W (Proc.devRef .tc main_v135)) = t) (h5 : (W (Proc.devRef .tc main_arg5)) = A) :
    after (r4 (F := Ideal)) W (Proc.devRef .tc main_v143) = prelu t (row3 A) := by
  subst ht h5
  after_results_simp <;> rfl

/-- The fourth layer: from nodes `y` in its input buffer it leaves `layer` of them in its result buffer, and keeps
    what is kept. -/
theorem lay4 (h : Kept x e Wl Wr B A W) {y : Nodes} (hy : (W (Proc.devRef .tc main_v110)) = y) :
    after (r4 (F := Ideal)) (after (a4 (F := Ideal)) W) (Proc.devRef .tc main_v143)
        = layer e (mat3 Wl) (mat3 Wr) (row3 B) (row3 A) y
      ∧ Kept x e Wl Wr B A (after (r4 (F := Ideal)) (after (a4 (F := Ideal)) W)) :=
by
  have ia := kept_a4 h
  have ha := res_a4 h.s h.d h.g hy h.a2 h.a3 h.a4
  have hr := res_r4 ha ia.a5
  have ir := kept_r4 ia
  refine ⟨?_, ir⟩
  rw [hr]
  rfl

end Layers

/-- The whole fold: the result buffer holds the network of the launch contents, and the arguments are kept. -/
theorem read (V : Valuation τ sig (Elt Ideal)) :
    after (RunP.ops (F := Ideal)) V (Proc.devRef .tc main_v143)
        = net (V (Proc.devRef .tc main_arg0)) (V (Proc.devRef .tc main_arg1)) (V (Proc.devRef .tc main_arg2)) (V (Proc.devRef .tc main_arg3)) (V (Proc.devRef .tc main_arg4)) (V (Proc.devRef .tc main_arg5))
      ∧ Kept (V (Proc.devRef .tc main_arg0)) (V (Proc.devRef .tc main_arg1)) (V (Proc.devRef .tc main_arg2)) (V (Proc.devRef .tc main_arg3)) (V (Proc.devRef .tc main_arg4)) (V (Proc.devRef .tc main_arg5))
          (after (RunP.ops (F := Ideal)) V) := by
  rw [ops_split]
  simp only [after_append]
  have i0 := kept_p0 V
  obtain ⟨e1, i1⟩ := lay1 i0 i0.a0
  obtain ⟨e2, i2⟩ := lay2 i1 e1
  obtain ⟨e3, i3⟩ := lay3 i2 e2
  obtain ⟨e4, i4⟩ := lay4 i3 e3
  exact ⟨e4, i4⟩

/-- On every device, from any memory with zero counters: every weakly fair execution of @main terminates with the
    result buffer at the four-layer network of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143)
          = net (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have ⟨e, i⟩ := read (launchContents m c)
      ⟨(h c main_v143).trans e, (h c main_arg0).trans i.a0, (h c main_arg1).trans i.a1, (h c main_arg2).trans i.a2,
        (h c main_arg3).trans i.a3, (h c main_arg4).trans i.a4, (h c main_arg5).trans i.a5⟩)
    (RunP.run_after m ρ)

end Cert.Sage.Ref

end
-- ==== Proof.lean ====
/-
  The certificate of a four-layer mean-aggregation graph network: a tiled kernel against its whole-array reference.

  Both programs compute, layer by layer, `out = prelu(agg · Wl + x · Wr + b)`, where `agg` is the mean of each node's
  in-neighbours' rows (a gather at the edges' sources, a scatter-add at their destinations, a scale by the
  reciprocal of the clamped indegree). The kernel runs the aggregation on the host and the dense half in a grid of
  ten launches per layer, one per block of 5000 rows, its matrix products taken on values first rounded to a
  shorter format; the reference runs everything on whole arrays. Over the extended reals the rounding is the
  identity, a matrix product into a zero accumulator is the plain sum over the 64 columns on both sides, and a
  block's rows are the array's rows: so both runs end with the same function `Cert.Sage.net` of the six arguments
  (Proof/Layer.lean), and no law of arithmetic beyond reading the same sums is used — in particular none that
  needs the inputs finite.

  The kernel's side: its run with the result array named (Proof/KerRun.lean), each launch's blocks assembled into
  the array (Proof/KerRegion0–3.lean), a block's body as the dense layer (Proof/DenseBlock.lean, Proof/KerDense.lean),
  the host stretches between launches (Proof/KerHost.lean) and the chain through all eight segments
  (Proof/KerChain.lean). The reference's side: its 164 operations folded a layer at a time (Proof/RefOps.lean,
  Proof/RefRun.lean). The three frames are the programs' runs with the result dropped; the idealization rewrote
  nothing, so there is nothing to preserve.
-/
import proofs.«121877_j6365141532718_1_alg».proof.Defs
import proofs.«121877_j6365141532718_1_alg».proof.Proof.Gen.Kernel
import proofs.«121877_j6365141532718_1_alg».proof.Proof.Gen.Kernel.Frame
import proofs.«121877_j6365141532718_1_alg».proof.Proof.Gen.KernelIdeal
import proofs.«121877_j6365141532718_1_alg».proof.Proof.Gen.KernelIdeal.Frame
import proofs.«121877_j6365141532718_1_alg».proof.Proof.Gen.ReferenceIdeal
import proofs.«121877_j6365141532718_1_alg».proof.Proof.Gen.Pre_finite_inputs
import proofs.«121877_j6365141532718_1_alg».proof.Proof.KerChain
import proofs.«121877_j6365141532718_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its read-back run with the result dropped. -/
theorem frame_referenceIdeal : Cert.frame_ReferenceIdeal := fun m ρ _ =>
  (θ_run Cert.ReferenceIdeal.defs _ _).mono (fun _ h c => (h c).2) (Cert.Sage.Ref.run m ρ)

/-- The idealization rewrote no operation. -/
theorem preserves : Cert.preserves_Kernel_KernelIdeal := trivial

/-- From memories agreeing on the six arguments both idealized programs end with the four-layer network of those
    arguments in their result arrays. -/
theorem algebraic : Cert.algebraic_KernelIdeal_ReferenceIdeal := by
  intro m ρ m' ρ' _ hagree
  refine ⟨_, Cert.Sage.Ker.run m ρ, ?_⟩
  refine (θ_run Cert.ReferenceIdeal.defs _ _).mono (fun _ h c => ⟨(h c).1.trans ?_, (h c).2⟩)
    (Cert.Sage.Ref.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
